-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S16 .f32) (main_arg14 : FVec F S128x16 .f32) (main_v48 : IVec S_ 1) (main_v49 : FVec F S128x16 .f32) (main_v50 : FVec F S128x16 .f32) : IVec S_ 1 :=
  let main_v51 : IVec S128x16 1 := cmpf .olt main_v49 main_v50
  let main_c_19 : IVec S_ 1 := constantI S_ 1 1#1
  let main_v52 : IVec S_ 1 := (fun x v => Host.reduce IntOp.andi x v reducesTo_S128x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S128x16 .f32 := Host.absf main_arg14
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x128 .f32) (main_arg12 : FVec F S128x16 .f32) (main_arg13 : FVec F S16 .f32) (main_arg14 : FVec F S128x16 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x16 .f32 := Host.absf main_arg12
  let main_cst_18 : FVec F S_ .f32 := constant S_ .f32 0x7F800000#32
  let main_v50 : FVec F S128x16 .f32 := broadcastInDim S128x16 ![] bcast_S_S128x16 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x16 .f32) (main_arg13 : FVec F S16 .f32) (main_arg14 : FVec F S128x16 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : FVec F S100000x128 .f32) (main_arg2 : IVec S2x1600000 32) (main_arg3 : IVec S2x1600000 32) (main_arg4 : FVec F S1600000 .f32) (main_arg5 : FVec F S1600000 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x16 .f32) (main_arg13 : FVec F S16 .f32) (main_arg14 : FVec F S128x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg5
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩
abbrev S5000x1 : Shape := ⟨2, ![5000, 1]⟩

abbrev nBuf : Space → Nat
  | .hbm => 123
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x1600000, .i32⟩
  | .hbm, ⟨3, _⟩ => ⟨S2x1600000, .i32⟩
  | .hbm, ⟨4, _⟩ => ⟨S1600000, .f32⟩
  | .hbm, ⟨5, _⟩ => ⟨S1600000, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x16, .f32⟩
  | .hbm, ⟨13, _⟩ => ⟨S16, .f32⟩
  | .hbm, ⟨14, _⟩ => ⟨S128x16, .f32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S1x1600000, .i32⟩
  | .hbm, ⟨30, _⟩ => ⟨S1600000, .i32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S_, .f32⟩
  | .hbm, ⟨36, _⟩ => ⟨S1600000, .f32⟩
  | .hbm, ⟨37, _⟩ => ⟨S1x1600000, .i32⟩
  | .hbm, ⟨38, _⟩ => ⟨S1600000, .i32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x128, .f32⟩
  | .hbm, ⟨62, _⟩ => ⟨S1600000x1, .f32⟩
  | .hbm, ⟨63, _⟩ => ⟨S1600000x128, .f32⟩
  | .hbm, ⟨64, _⟩ => ⟨S1600000x128, .f32⟩
  | .hbm, ⟨65, _⟩ => ⟨S1x1600000, .i32⟩
  | .hbm, ⟨66, _⟩ => ⟨S1600000, .i32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S1x1600000, .i32⟩
  | .hbm, ⟨74, _⟩ => ⟨S1600000, .i32⟩
  | .hbm, ⟨75, _⟩ => ⟨S_, .f32⟩
  | .hbm, ⟨76, _⟩ => ⟨S100000, .f32⟩
  | .hbm, ⟨77, _⟩ => ⟨S1600000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S1x1600000, .i32⟩
  | .hbm, ⟨88, _⟩ => ⟨S1600000, .i32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S1600000x1, .f32⟩
  | .hbm, ⟨99, _⟩ => ⟨S1600000x128, .f32⟩
  | .hbm, ⟨100, _⟩ => ⟨S1600000x128, .f32⟩
  | .hbm, ⟨101, _⟩ => ⟨S1x1600000, .i32⟩
  | .hbm, ⟨102, _⟩ => ⟨S1600000, .i32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S_, .f32⟩
  | .hbm, ⟨108, _⟩ => ⟨S1600000, .f32⟩
  | .hbm, ⟨109, _⟩ => ⟨S1x1600000, .i32⟩
  | .hbm, ⟨110, _⟩ => ⟨S1600000, .i32⟩
  | .hbm, ⟨111, _⟩ => ⟨S_, .f32⟩
  | .hbm, ⟨112, _⟩ => ⟨S100000, .f32⟩
  | .hbm, ⟨113, _⟩ => ⟨S1600000x1, .i32⟩
  | .hbm, ⟨114, _⟩ => ⟨S100000, .f32⟩
  | .hbm, ⟨115, _⟩ => ⟨S_, .f32⟩
  | .hbm, ⟨116, _⟩ => ⟨S100000, .f32⟩
  | .hbm, ⟨117, _⟩ => ⟨S100000, .f32⟩
  | .hbm, ⟨118, _⟩ => ⟨S100000x1, .f32⟩
  | .hbm, ⟨119, _⟩ => ⟨S100000x128, .f32⟩
  | .hbm, ⟨120, _⟩ => ⟨S100000x128, .f32⟩
  | .hbm, ⟨121, _⟩ => ⟨S1x16, .f32⟩
  | .hbm, ⟨122, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S128x16, .f32⟩
  | .local _ .vmem, ⟨24, _⟩ => ⟨S1x16, .f32⟩
  | .local _ .vmem, ⟨25, _⟩ => ⟨S5000x16, .f32⟩
  | .local _ .vmem, ⟨26, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_10 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_14 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_15 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_1_0 : S2x1600000.Slices ![1, 0] S1x1600000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x16.size a ≤ S128x16.size a
  hwx2_2 : ∀ i : grid2.Coords, EltTy.bits .f32 = 32 ∨ (Rect.block (s := S128x16) S128x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x16.size a ≤ S128x16.size a
  hwx2_3 : ∀ i : grid2.Coords, EltTy.bits .f32 = 32 ∨ (Rect.block (s := S128x16) S128x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S128x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v88) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S100000x128, .f32⟩
  | 2 => ⟨S2x1600000, .i32⟩
  | 3 => ⟨S2x1600000, .i32⟩
  | 4 => ⟨S1600000, .f32⟩
  | 5 => ⟨S1600000, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x16, .f32⟩
  | 13 => ⟨S16, .f32⟩
  | 14 => ⟨S128x16, .f32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S1600000x1, .f32⟩
  | 27 => ⟨S1600000x128, .f32⟩
  | 28 => ⟨S1600000x128, .f32⟩
  | 29 => ⟨S1x1600000, .i32⟩
  | 30 => ⟨S1600000, .i32⟩
  | 31 => ⟨S_, .f32⟩
  | 32 => ⟨S100000x128, .f32⟩
  | 33 => ⟨S1600000x1, .i32⟩
  | 34 => ⟨S100000x128, .f32⟩
  | 35 => ⟨S_, .f32⟩
  | 36 => ⟨S1600000, .f32⟩
  | 37 => ⟨S1x1600000, .i32⟩
  | 38 => ⟨S1600000, .i32⟩
  | 39 => ⟨S_, .f32⟩
  | 40 => ⟨S100000, .f32⟩
  | 41 => ⟨S1600000x1, .i32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S1x1600000, .i32⟩
  | 59 => ⟨S1600000, .i32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x1, .f32⟩
  | 70 => ⟨S1600000x128, .f32⟩
  | 71 => ⟨S1600000x128, .f32⟩
  | 72 => ⟨S1x1600000, .i32⟩
  | 73 => ⟨S1600000, .i32⟩
  | 74 => ⟨S_, .f32⟩
  | 75 => ⟨S100000x128, .f32⟩
  | 76 => ⟨S1600000x1, .i32⟩
  | 77 => ⟨S100000x128, .f32⟩
  | 78 => ⟨S_, .f32⟩
  | 79 => ⟨S1600000, .f32⟩
  | 80 => ⟨S1x1600000, .i32⟩
  | 81 => ⟨S1600000, .i32⟩
  | 82 => ⟨S_, .f32⟩
  | 83 => ⟨S100000, .f32⟩
  | 84 => ⟨S1600000x1, .i32⟩
  | 85 => ⟨S100000, .f32⟩
  | 86 => ⟨S_, .f32⟩
  | 87 => ⟨S100000, .f32⟩
  | 88 => ⟨S100000, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x1600000, .i32⟩
  | 102 => ⟨S1600000, .i32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S1x1600000, .i32⟩
  | 116 => ⟨S1600000, .i32⟩
  | 117 => ⟨S_, .f32⟩
  | 118 => ⟨S100000x128, .f32⟩
  | 119 => ⟨S1600000x1, .i32⟩
  | 120 => ⟨S100000x128, .f32⟩
  | 121 => ⟨S_, .f32⟩
  | 122 => ⟨S1600000, .f32⟩
  | 123 => ⟨S1x1600000, .i32⟩
  | 124 => ⟨S1600000, .i32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x128, .f32⟩
  | 6 => ⟨S100000x128, .f32⟩
  | 7 => ⟨S100000x16, .f32⟩
  | 8 => ⟨S1x16, .f32⟩
  | 9 => ⟨S100000x16, .f32⟩
  | 10 => ⟨S100000x16, .f32⟩
  | 11 => ⟨S100000x16, .f32⟩
  | 12 => ⟨S100000x16, .f32⟩
  | 13 => ⟨S_, .f32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x16, .f32⟩
  | 20 => ⟨S100000x16, .f32⟩
  | 21 => ⟨S100000x16, .f32⟩
  | 22 => ⟨S_, .f32⟩
  | 23 => ⟨S100000, .f32⟩
  | 24 => ⟨S100000x1, .f32⟩
  | 25 => ⟨S100000x1, .f32⟩
  | 26 => ⟨S100000x16, .f32⟩
  | 27 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_call0_cst : Ref sig .tc := ⟨.hbm, 55, rfl⟩
abbrev main_call0_v0 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_4 : Ref sig .tc := ⟨.hbm, 60, rfl⟩
abbrev main_v37 : Ref sig .tc := ⟨.hbm, 61, rfl⟩
abbrev main_v38 : Ref sig .tc := ⟨.hbm, 62, rfl⟩
abbrev main_c_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_6 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_cst : Ref sig .tc := ⟨.hbm, 98, rfl⟩
abbrev main_call1_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_10 : Ref sig .tc := ⟨.hbm, 103, rfl⟩
abbrev main_v72 : Ref sig .tc := ⟨.hbm, 104, rfl⟩
abbrev main_v73 : Ref sig .tc := ⟨.hbm, 105, rfl⟩
abbrev main_c_11 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_13 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_14 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_call2_cst : Ref sig .tc := ⟨.hbm, 141, rfl⟩
abbrev main_call2_v0 : Ref sig .tc := ⟨.hbm, 142, rfl⟩
abbrev main_call2_cst_0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_cst_1 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_v104 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S2x1600000_S1x1600000_1_0 : S2x1600000.Slices ![1, 0] S1x1600000
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The idealized kernel's whole run with its result named.

  The program is three kernel regions among three stretches of host operations. Its buffer contents at the six segment
  boundaries are a fold from the launch memory: a host stretch applies its operations, a region replaces each of its
  arrays by what the pipeline's write-backs leave and keeps every other buffer. Every weakly fair execution
  terminates without a fault; the final memory holds, at the result buffer, the last boundary's contents there, and the
  argument arrays are as launched.
-/
import proofs.«178790_j38628935860965_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the launch over the program's six segments; the last thread state (every unscoped buffer at the last
    boundary's contents) is read against the final state, the result buffer as it stands and each argument walked back
    through the fold to its launch contents. -/
theorem run : θ_run defs (onTc (τ := τ) (main (F := F))) ⟨m, fun _ => 0, ρ⟩ (fun r => ∀ c : Dev nD,
      r.2.mem ((c.tc : Thread nD τ).loc main_v89) = W6 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v89 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.ValueRun

end
-- ==== Proof.Walk.lean ====
/-
  Buffers that a stretch of the program leaves alone.

  The buffer contents at the program's segment boundaries are a fold from the launch memory. No host operation and no
  region writes an argument array, so at every boundary an argument still holds its launch contents; and a region's
  result is not written again by the host operations that follow it, so it is still there when a later region or a later
  host operation reads it.
-/
import proofs.«178790_j38628935860965_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-! ## An argument at a boundary holds its launch contents -/

theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W5_arg14 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

/-! ## A region's result is still there after the next host stretch and the next region -/

/-- The hidden item features (region 0's result) after the second host stretch. -/
theorem W3_v29 (c : Dev nD) : W3 m ρ c (Proc.devRef .tc main_v29) = W2 m ρ c (Proc.devRef .tc main_v29) :=
  StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- … and after region 1, which does not touch them. -/
theorem W4_v29 (c : Dev nD) : W4 m ρ c (Proc.devRef .tc main_v29) = W3 m ρ c (Proc.devRef .tc main_v29) :=
  W4_of_ne m ρ c main_v29 (by decide)

/-- The hidden user features (region 1's result) after the third host stretch. -/
theorem W5_v59 (c : Dev nD) : W5 m ρ c (Proc.devRef .tc main_v59) = W4 m ρ c (Proc.devRef .tc main_v59) :=
  StableHlo.after_of_forall_not_mem (b := Proc.devRef .tc main_v59) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Walk

end
-- ==== Proof.HostLayers.lean ====
/-
  The two dense layers of the network as the host spells them, each as one function of whole arrays.

  A layer takes the aggregated neighbour features `X0`, the destination nodes' own features `X1`, two weight matrices
  and a bias vector. The hidden layer is `max ((X0 · Wl + b) + X1 · Wr) 0`; the output layer is the row-wise
  log-softmax of `(X0 · Wl + b) + X1 · Wr`: with `m` the row maximum and `s = z - m`, the value `s - log (Σ exp s)`.
  The bias is broadcast along the rows. These are the operation terms of the reference program, so that its stages are
  these functions by unfolding.
-/
import proofs.«178790_j38628935860965_1_alg».proof.Proof.Gen.ReferenceIdeal

noncomputable section

namespace Cert.Sage

open Cert.ReferenceIdeal Cert.ReferenceIdeal.Gen Idealize.ShloMosaic

variable {F : FTy → Type} [FloatOps F]

/-- The pre-activation `(X0 · Wl + b) + X1 · Wr` of a layer with 128 outputs. -/
def hostLin128 (X0 X1 : FVec F S100000x128 .f32) (Wl Wr : FVec F S128x128 .f32) (B : FVec F S128 .f32) :
    FVec F S100000x128 .f32 :=
  addf (addf (Host.dotGeneral dot_S100000x128_S128x128_S100000x128_1_0_0_1_n_n none X0 Wl)
      (broadcastInDim S100000x128 ![0, 1] bcast_S1x128_S100000x128_0_1 (broadcastInDim S1x128 ![1] bcast_S128_S1x128_1 B)))
    (Host.dotGeneral dot_S100000x128_S128x128_S100000x128_1_0_0_1_n_n none X1 Wr)

/-- The hidden layer: the pre-activation, rectified. -/
def hostRelu (X0 X1 : FVec F S100000x128 .f32) (Wl Wr : FVec F S128x128 .f32) (B : FVec F S128 .f32) :
    FVec F S100000x128 .f32 :=
  maximumf (hostLin128 X0 X1 Wl Wr B) (broadcastInDim S100000x128 ![] bcast_S_S100000x128 (constant S_ .f32 0x00000000#32))

/-- The pre-activation `(X0 · Wl + b) + X1 · Wr` of the layer with 16 outputs. -/
def hostLin16 (X0 X1 : FVec F S100000x128 .f32) (Wl Wr : FVec F S128x16 .f32) (B : FVec F S16 .f32) :
    FVec F S100000x16 .f32 :=
  addf (addf (Host.dotGeneral dot_S100000x128_S128x16_S100000x16_1_0_0_1_n_n none X0 Wl)
      (broadcastInDim S100000x16 ![0, 1] bcast_S1x16_S100000x16_0_1 (broadcastInDim S1x16 ![1] bcast_S16_S1x16_1 B)))
    (Host.dotGeneral dot_S100000x128_S128x16_S100000x16_1_0_0_1_n_n none X1 Wr)

/-- A row-wise log-softmax of a [100000, 16] array, as the host spells it: the row maximum (joined once more with -inf),
    the shifted entries, and the logarithm of the row sum of their exponentials subtracted. -/
def hostLogSoftmax (Z : FVec F S100000x16 .f32) : FVec F S100000x16 .f32 :=
  subf
    (subf Z (broadcastInDim S100000x16 ![0, 1] bcast_S100000x1_S100000x16_0_1 (broadcastInDim S100000x1 ![0] bcast_S100000_S100000x1_0
      (maximumf (broadcastInDim S100000 ![] bcast_S_S100000 (constant S_ .f32 0xFF800000#32))
        (Host.reduce FloatOps.maximumf Z (constant S_ .f32 0xFF800000#32) reducesTo_S100000x16_S100000_d1 h_S_)))))
    (broadcastInDim S100000x16 ![0, 1] bcast_S100000x1_S100000x16_0_1 (Host.log (broadcastInDim S100000x1 ![0] bcast_S100000_S100000x1_0
      (Host.reduceAdd
        (Host.exp (subf Z (broadcastInDim S100000x16 ![0, 1] bcast_S100000x1_S100000x16_0_1 (broadcastInDim S100000x1 ![0] bcast_S100000_S100000x1_0
          (maximumf (broadcastInDim S100000 ![] bcast_S_S100000 (constant S_ .f32 0xFF800000#32))
            (Host.reduce FloatOps.maximumf Z (constant S_ .f32 0xFF800000#32) reducesTo_S100000x16_S100000_d1 h_S_))))))
        (constant S_ .f32 0x00000000#32) reducesTo_S100000x16_S100000_d1 h_S_))))

/-- The output layer: the log-softmax of its pre-activation. -/
def hostLogsm (X0 X1 : FVec F S100000x128 .f32) (Wl Wr : FVec F S128x16 .f32) (B : FVec F S16 .f32) :
    FVec F S100000x16 .f32 :=
  hostLogSoftmax (hostLin16 X0 X1 Wl Wr B)

end Cert.Sage

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«178790_j38628935860965_1_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.LibLinearEntry.lean ====
/-
  A biased, rectified linear layer read at one entry.

  Two spellings of one layer: a block of rows computed on the matrix unit (the operands narrowed to bf16, a product into a
  zero accumulator) and the whole array computed by a plain host product. At the extended reals a change of format is the
  identity, so both read, at entry (p, q), the sum over the contracted coordinate k of
  max (x (p, k) + b (0, k)) 0 · w (k, q); without the rectifier, of (x (p, k) + b (0, k)) · w (k, q).
  The last lemmas compare a block with the whole array: when row p of the block is row P of the array and the
  bias row and the weights are the array's, entry (p, q) of the block is entry (P, q) of the array.
-/
import Idealize.ShloMosaic.PureOps.Ideal
import Idealize.ShloMosaic.PureOps.Ideal.Laws
import Idealize.ShloMosaic.Lib.ValueIdx
import Idealize.ShloMosaic.Lib.Pipeline.Value
import proofs.«178790_j38628935860965_1_alg».proof.Proof.LibPlainDot

noncomputable section

open scoped BigOperators

namespace Cert.LinearEntry

open Idealize.ShloMosaic Idealize.ShloMosaic.ValueIdx Cert.LibPlainDot

variable {n N K M : Nat}

/-- A bias row broadcast down the rows, read at (p, k), is the row's entry k. -/
theorem biasRow_apply (b : (⟨2, ![1, K]⟩ : Shape).Idx → EReal)
    (hbc : (⟨2, ![1, K]⟩ : Shape).Broadcasts ⟨2, ![n, K]⟩) (p : Fin n) (k : Fin K) :
    broadcastTo ⟨2, ![n, K]⟩ b hbc (ix2 p k) = b (ix2 0 k) :=
  broadcastTo_apply b hbc (ix2 p k) (ix2 0 k) (fun a => by
    match a with
    | ⟨0, _⟩ => rfl
    | ⟨1, _⟩ =>
      show k.val = if K = 1 then 0 else k.val
      have hk : k.val < K := k.isLt
      split_ifs with e
      · omega
      · rfl)

/-- The host's broadcast of the bias row along axis 0, read at (P, k), is the row's entry k. -/
theorem biasRowHost_apply (B : (⟨2, ![1, K]⟩ : Shape).Idx → EReal)
    (hb : (⟨2, ![1, K]⟩ : Shape).BroadcastsInDim ⟨2, ![N, K]⟩ ![0, 1]) (P : Fin N) (k : Fin K) :
    broadcastInDim ⟨2, ![N, K]⟩ ![0, 1] hb B (ix2 P k) = B (ix2 0 k) :=
  broadcastInDim_apply ![0, 1] hb B (ix2 P k) (ix2 0 k) (fun a => by
    match a with
    | ⟨0, _⟩ => rfl
    | ⟨1, _⟩ =>
      show k.val = if K = 1 then 0 else k.val
      have hk : k.val < K := k.isLt
      split_ifs with e
      · omega
      · rfl)

/-- A block of the rectified layer on the matrix unit, at entry (p, q). -/
theorem blockRelu_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = ∑ k : Fin K, max (x (ix2 p k) + b (ix2 0 k)) 0 * w (ix2 k q) := by
  refine (matmul_zero_apply h none _ _ p q).trans ?_
  refine Finset.sum_congr rfl fun k _ => ?_
  rw [truncf_apply, truncf_apply, maximumf_apply, addf_apply, broadcast_apply, shapeCast_self, shapeCast_self,
    biasRow_apply b hbc p k]
  show max _ (Ideal.ofBits .f32 0x00000000#32) * _ = _
  rw [Ideal.ofBits_zero_f32]

/-- A block of the layer without a rectifier on the matrix unit, at entry (p, q). -/
theorem blockLinear_apply (D : DotDims ⟨2, ![n, K]⟩ ⟨2, ![K, M]⟩ ⟨2, ![n, M]⟩) (h : Plain D)
    (x : FVec Ideal ⟨2, ![n, K]⟩ .f32) (b : FVec Ideal ⟨2, ![1, K]⟩ .f32) (w : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits) (p : Fin n) (q : Fin M) :
    matmul D none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = ∑ k : Fin K, (x (ix2 p k) + b (ix2 0 k)) * w (ix2 k q) := by
  refine (matmul_zero_apply h none _ _ p q).trans ?_
  refine Finset.sum_congr rfl fun k _ => ?_
  rw [truncf_apply, truncf_apply, addf_apply, shapeCast_self, biasRow_apply b hbc p k]

/-- The host's rectified layer, at entry (P, q). -/
theorem hostRelu_apply (D : DotDims ⟨2, ![N, K]⟩ ⟨2, ![K, M]⟩ ⟨2, ![N, M]⟩) (h : Plain D)
    (X : FVec Ideal ⟨2, ![N, K]⟩ .f32) (B : FVec Ideal ⟨2, ![1, K]⟩ .f32) (W : FVec Ideal ⟨2, ![K, M]⟩ .f32)
    (hb : (⟨2, ![1, K]⟩ : Shape).BroadcastsInDim ⟨2, ![N, K]⟩ ![0, 1])
    (hz : (⟨0, ![]⟩ : Shape).BroadcastsInDim ⟨2, ![N, K]⟩ ![]) (P : Fin N) (q : Fin M) :
    Host.dotGeneral (F := Ideal) D none
        (maximumf (addf X (broadcastInDim ⟨2, ![N, K]⟩ ![0, 1] hb B))
          (broadcastInDim ⟨2, ![N, K]⟩ ![] hz (constant (F := Ideal) ⟨0, ![]⟩ .f32 0x00000000#32)))
        W (ix2 P q)
      = ∑ k : Fin K, max (X (ix2 P k) + B (ix2 0 k)) 0 * W (ix2 k q) := by
  refine (hostDot_apply h none _ _ P q).trans ?_
  refine Finset.sum_congr rfl fun k _ => ?_
  rw [maximumf_apply, addf_apply, biasRowHost_apply B hb P k]
  show max _ (Ideal.ofBits .f32 0x00000000#32) * _ = _
  rw [Ideal.ofBits_zero_f32]

/-- Block against array, rectified: when row p of the block `x` is row P of the array `X`, and the block's bias row and
    column q of its weights are the array's, entry (p, q) of the block of the layer is entry (P, q) of the host's layer of
    the whole array. -/
theorem blockRelu_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (B : FVec Ideal ⟨2, ![1, K]⟩ .f32) (W : FVec Ideal ⟨2, ![K, M]⟩ .f32)
    (hx : (⟨2, ![n, K]⟩ : Shape).ShapeCasts ⟨2, ![n, K]⟩) (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (hbi : (⟨2, ![1, K]⟩ : Shape).BroadcastsInDim ⟨2, ![N, K]⟩ ![0, 1])
    (hz : (⟨0, ![]⟩ : Shape).BroadcastsInDim ⟨2, ![N, K]⟩ ![])
    (p : Fin n) (P : Fin N) (q : Fin M) (hrow : ∀ k : Fin K, x (ix2 p k) = X (ix2 P k))
    (hbias : ∀ k : Fin K, b (ix2 0 k) = B (ix2 0 k)) (hcol : ∀ k : Fin K, w (ix2 k q) = W (ix2 k q)) :
    matmul Dk none
        (truncf .bf16 (maximumf (addf (shapeCast ⟨2, ![n, K]⟩ x hx) (broadcastTo ⟨2, ![n, K]⟩ (shapeCast ⟨2, ![1, K]⟩ b hb) hbc))
          (broadcast ⟨2, ![n, K]⟩ (Scalar.ofBits (F := Ideal) .f32 0x00000000#32))) ht)
        (truncf .bf16 w ht) (constant ⟨2, ![n, M]⟩ .f32 0x00000000#32) (ix2 p q)
      = Host.dotGeneral (F := Ideal) Dh none
        (maximumf (addf X (broadcastInDim ⟨2, ![N, K]⟩ ![0, 1] hbi B))
          (broadcastInDim ⟨2, ![N, K]⟩ ![] hz (constant (F := Ideal) ⟨0, ![]⟩ .f32 0x00000000#32)))
        W (ix2 P q) := by
  rw [blockRelu_apply Dk hk x b w hx hb hbc ht p q, hostRelu_apply Dh hh X B W hbi hz P q]
  exact Finset.sum_congr rfl fun k _ => by rw [hrow k, hbias k, hcol k]

/-- Block against array, no rectifier and a zero bias row: entry (p, q) of the block of the layer is entry (P, q) of the
    host's plain product of the whole array. -/
theorem blockLinear_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x : FVec Ideal ⟨2, ![n, K]⟩ .f32) (b : FVec Ideal ⟨2, ![1, K]⟩ .f32) (w : FVec Ideal ⟨2, ![K, M]⟩ .f32)
    (X : FVec Ideal ⟨2, ![N, K]⟩ .f32) (W : FVec Ideal ⟨2, ![K, M]⟩ .f32)
    (hb : (⟨2, ![1, K]⟩ : Shape).ShapeCasts ⟨2, ![1, K]⟩)
    (hbc : (⟨2, ![1, K]⟩ : Shape).Broadcasts ⟨2, ![n, K]⟩) (ht : FTy.bf16.bits < FTy.f32.bits)
    (p : Fin n) (P : Fin N) (q : Fin M) (hrow : ∀ k : Fin K, x (ix2 p k) = X (ix2 P k))
    (hzero : ∀ k : Fin K, b (ix2 0 k) = 0) (hcol : ∀ k : Fin K, w (ix2 k q) = W (ix2 k q)) :
    matmul Dk none
        (truncf .bf16 (addf x (broadcastTo ⟨2, ![n, K]⟩ (shapeCast ⟨2, ![1, K]⟩ b hb) hbc)) ht)
        (truncf .bf16 w ht) (constant ⟨2, ![n, M]⟩ .f32 0x00000000#32) (ix2 p q)
      = Host.dotGeneral (F := Ideal) Dh none X W (ix2 P q) := by
  rw [blockLinear_apply Dk hk x b w hb hbc ht p q, hostDot_apply hh none X W P q]
  exact Finset.sum_congr rfl fun k _ => by rw [hrow k, hzero k, add_zero, hcol k]

end Cert.LinearEntry

end
-- ==== Proof.LibSageLinear.lean ====
/-
  A dense layer with two matrix products and a bias, read at one entry, at the exact values.

  The layer's pre-activation is computed twice. On a block of rows the operands are narrowed to bf16, each product is
  taken on the matrix unit into a zero accumulator, the two products are added, and the bias row [1, M] is spread down
  the rows and added last: entry (p, q) is (Σ_k x0 (p, k) · wl (k, q) + Σ_k x1 (p, k) · wr (k, q)) + b (0, q). On the
  whole array the host takes plain products, places the bias vector [M] as a row, spreads it down the rows, and adds it
  between the two products: entry (P, q) is (Σ_k X0 (P, k) · Wl (k, q) + B (q)) + Σ_k X1 (P, k) · Wr (k, q). On the
  extended reals a change of format is the identity and addition is commutative and associative, so when row p of each
  block operand is row P of the corresponding array and column q of the weights and entry q of the bias agree, the two
  entries are equal (a + c + b = a + b + c; no finiteness is used). The rectified layer takes the maximum with zero on
  both sides. Generic in the extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost
import proofs.«178790_j38628935860965_1_alg».proof.Proof.LibPlainDot
import proofs.«178790_j38628935860965_1_alg».proof.Proof.LibLinearEntry

noncomputable section

open scoped BigOperators

namespace Cert.SageLayer

open Idealize.ShloMosaic Idealize.ShloMosaic.ValueIdx Cert.LibPlainDot Cert.LinearEntry

variable {n N K M : Nat}

/-- A vector [M] placed as the row [1, M] reads, at (u, k), its entry k. -/
theorem vecRowHost_apply {α : Type} (B : (⟨1, ![M]⟩ : Shape).Idx → α)
    (hb : (⟨1, ![M]⟩ : Shape).BroadcastsInDim ⟨2, ![1, M]⟩ ![1]) (u : Fin 1) (k : Fin M) :
    broadcastInDim ⟨2, ![1, M]⟩ ![1] hb B (ix2 u k) = B (ix1 k) :=
  broadcastInDim_apply ![1] hb B (ix2 u k) (ix1 k) (fun a => by
    match a with
    | ⟨0, _⟩ =>
      show k.val = if M = 1 then 0 else k.val
      have hk : k.val < M := k.isLt
      split_ifs with e
      · omega
      · rfl)

/-- The block's pre-activation at entry (p, q): the two row-by-column sums, then the bias row's entry. -/
theorem blockLin_apply (D : DotDims ⟨2, ![n, K]⟩ ⟨2, ![K, M]⟩ ⟨2, ![n, M]⟩) (h : Plain D)
    (x0 x1 : FVec Ideal ⟨2, ![n, K]⟩ .f32) (wl wr : FVec Ideal ⟨2, ![K, M]⟩ .f32) (b : FVec Ideal ⟨2, ![1, M]⟩ .f32)
    (hb : (⟨2, ![1, M]⟩ : Shape).ShapeCasts ⟨2, ![1, M]⟩) (hbc : (⟨2, ![1, M]⟩ : Shape).Broadcasts ⟨2, ![n, M]⟩)
    (ht : FTy.bf16.bits < FTy.f32.bits) (p : Fin n) (q : Fin M) :
    addf (addf (matmul D none (truncf .bf16 x0 ht) (truncf .bf16 wl ht) (constant ⟨2, ![n, M]⟩ .f32 0x00000000#32))
          (matmul D none (truncf .bf16 x1 ht) (truncf .bf16 wr ht) (constant ⟨2, ![n, M]⟩ .f32 0x00000000#32)))
        (broadcastTo ⟨2, ![n, M]⟩ (shapeCast ⟨2, ![1, M]⟩ b hb) hbc) (ix2 p q)
      = (∑ k : Fin K, x0 (ix2 p k) * wl (ix2 k q) + ∑ k : Fin K, x1 (ix2 p k) * wr (ix2 k q)) + b (ix2 0 q) := by
  rw [addf_apply, addf_apply, shapeCast_self, biasRow_apply b hbc p q]
  refine congrArg₂ (· + ·) (congrArg₂ (· + ·) ?_ ?_) rfl
  · exact (matmul_zero_apply h none _ _ p q).trans (Finset.sum_congr rfl fun k _ => rfl)
  · exact (matmul_zero_apply h none _ _ p q).trans (Finset.sum_congr rfl fun k _ => rfl)

/-- The host's pre-activation at entry (P, q): the first sum, the bias vector's entry, then the second sum. -/
theorem hostLin_apply (D : DotDims ⟨2, ![N, K]⟩ ⟨2, ![K, M]⟩ ⟨2, ![N, M]⟩) (h : Plain D)
    (X0 X1 : FVec Ideal ⟨2, ![N, K]⟩ .f32) (Wl Wr : FVec Ideal ⟨2, ![K, M]⟩ .f32) (B : FVec Ideal ⟨1, ![M]⟩ .f32)
    (hb1 : (⟨1, ![M]⟩ : Shape).BroadcastsInDim ⟨2, ![1, M]⟩ ![1])
    (hb2 : (⟨2, ![1, M]⟩ : Shape).BroadcastsInDim ⟨2, ![N, M]⟩ ![0, 1]) (P : Fin N) (q : Fin M) :
    addf (addf (Host.dotGeneral (F := Ideal) D none X0 Wl)
          (broadcastInDim ⟨2, ![N, M]⟩ ![0, 1] hb2 (broadcastInDim ⟨2, ![1, M]⟩ ![1] hb1 B)))
        (Host.dotGeneral (F := Ideal) D none X1 Wr) (ix2 P q)
      = (∑ k : Fin K, X0 (ix2 P k) * Wl (ix2 k q) + B (ix1 q)) + ∑ k : Fin K, X1 (ix2 P k) * Wr (ix2 k q) := by
  rw [addf_apply, addf_apply, hostDot_apply h none X0 Wl P q, hostDot_apply h none X1 Wr P q,
    biasRowHost_apply _ hb2 P q, vecRowHost_apply B hb1 0 q]

/-- Block against array: when row p of each block operand is row P of the corresponding array, and column q of the
    weights and entry q of the bias agree, entry (p, q) of the block's pre-activation is entry (P, q) of the host's. -/
theorem blockLin_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x0 x1 : FVec Ideal ⟨2, ![n, K]⟩ .f32) (wl wr : FVec Ideal ⟨2, ![K, M]⟩ .f32) (b : FVec Ideal ⟨2, ![1, M]⟩ .f32)
    (X0 X1 : FVec Ideal ⟨2, ![N, K]⟩ .f32) (Wl Wr : FVec Ideal ⟨2, ![K, M]⟩ .f32) (B : FVec Ideal ⟨1, ![M]⟩ .f32)
    (hb : (⟨2, ![1, M]⟩ : Shape).ShapeCasts ⟨2, ![1, M]⟩) (hbc : (⟨2, ![1, M]⟩ : Shape).Broadcasts ⟨2, ![n, M]⟩)
    (ht : FTy.bf16.bits < FTy.f32.bits)
    (hb1 : (⟨1, ![M]⟩ : Shape).BroadcastsInDim ⟨2, ![1, M]⟩ ![1])
    (hb2 : (⟨2, ![1, M]⟩ : Shape).BroadcastsInDim ⟨2, ![N, M]⟩ ![0, 1])
    (p : Fin n) (P : Fin N) (q : Fin M)
    (h0 : ∀ k : Fin K, x0 (ix2 p k) = X0 (ix2 P k)) (h1 : ∀ k : Fin K, x1 (ix2 p k) = X1 (ix2 P k))
    (hl : ∀ k : Fin K, wl (ix2 k q) = Wl (ix2 k q)) (hr : ∀ k : Fin K, wr (ix2 k q) = Wr (ix2 k q))
    (hbias : b (ix2 0 q) = B (ix1 q)) :
    addf (addf (matmul Dk none (truncf .bf16 x0 ht) (truncf .bf16 wl ht) (constant ⟨2, ![n, M]⟩ .f32 0x00000000#32))
          (matmul Dk none (truncf .bf16 x1 ht) (truncf .bf16 wr ht) (constant ⟨2, ![n, M]⟩ .f32 0x00000000#32)))
        (broadcastTo ⟨2, ![n, M]⟩ (shapeCast ⟨2, ![1, M]⟩ b hb) hbc) (ix2 p q)
      = addf (addf (Host.dotGeneral (F := Ideal) Dh none X0 Wl)
          (broadcastInDim ⟨2, ![N, M]⟩ ![0, 1] hb2 (broadcastInDim ⟨2, ![1, M]⟩ ![1] hb1 B)))
        (Host.dotGeneral (F := Ideal) Dh none X1 Wr) (ix2 P q) := by
  rw [blockLin_apply Dk hk x0 x1 wl wr b hb hbc ht p q, hostLin_apply Dh hh X0 X1 Wl Wr B hb1 hb2 P q, hbias,
    Finset.sum_congr rfl fun k _ => show x0 (ix2 p k) * wl (ix2 k q) = X0 (ix2 P k) * Wl (ix2 k q) by rw [h0 k, hl k],
    Finset.sum_congr rfl fun k _ => show x1 (ix2 p k) * wr (ix2 k q) = X1 (ix2 P k) * Wr (ix2 k q) by rw [h1 k, hr k]]
  exact add_right_comm _ _ _

/-- Block against array, rectified: under the same hypotheses the maximum with zero agrees entry by entry. -/
theorem blockRelu_eq_host (Dk : DotDims ⟨2, ![n, K]⟩ ⟨2, ![K, M]⟩ ⟨2, ![n, M]⟩) (hk : Plain Dk)
    (Dh : DotDims ⟨2, ![N, K]⟩ ⟨2, ![K, M]⟩ ⟨2, ![N, M]⟩) (hh : Plain Dh)
    (x0 x1 : FVec Ideal ⟨2, ![n, K]⟩ .f32) (wl wr : FVec Ideal ⟨2, ![K, M]⟩ .f32) (b : FVec Ideal ⟨2, ![1, M]⟩ .f32)
    (X0 X1 : FVec Ideal ⟨2, ![N, K]⟩ .f32) (Wl Wr : FVec Ideal ⟨2, ![K, M]⟩ .f32) (B : FVec Ideal ⟨1, ![M]⟩ .f32)
    (hb : (⟨2, ![1, M]⟩ : Shape).ShapeCasts ⟨2, ![1, M]⟩) (hbc : (⟨2, ![1, M]⟩ : Shape).Broadcasts ⟨2, ![n, M]⟩)
    (ht : FTy.bf16.bits < FTy.f32.bits)
    (hb1 : (⟨1, ![M]⟩ : Shape).BroadcastsInDim ⟨2, ![1, M]⟩ ![1])
    (hb2 : (⟨2, ![1, M]⟩ : Shape).BroadcastsInDim ⟨2, ![N, M]⟩ ![0, 1])
    (hz : (⟨0, ![]⟩ : Shape).BroadcastsInDim ⟨2, ![N, M]⟩ ![])
    (p : Fin n) (P : Fin N) (q : Fin M)
    (h0 : ∀ k : Fin K, x0 (ix2 p k) = X0 (ix2 P k)) (h1 : ∀ k : Fin K, x1 (ix2 p k) = X1 (ix2 P k))
    (hl : ∀ k : Fin K, wl (ix2 k q) = Wl (ix2 k q)) (hr : ∀ k : Fin K, wr (ix2 k q) = Wr (ix2 k q))
    (hbias : b (ix2 0 q) = B (ix1 q)) :
    maximumf
        (addf (addf (matmul Dk none (truncf .bf16 x0 ht) (truncf .bf16 wl ht) (constant ⟨2, ![n, M]⟩ .f32 0x00000000#32))
            (matmul Dk none (truncf .bf16 x1 ht) (truncf .bf16 wr ht) (constant ⟨2, ![n, M]⟩ .f32 0x00000000#32)))
          (broadcastTo ⟨2, ![n, M]⟩ (shapeCast ⟨2, ![1, M]⟩ b hb) hbc))
        (broadcast ⟨2, ![n, M]⟩ (Scalar.ofBits (F := Ideal) .f32 0x00000000#32)) (ix2 p q)
      = maximumf
        (addf (addf (Host.dotGeneral (F := Ideal) Dh none X0 Wl)
            (broadcastInDim ⟨2, ![N, M]⟩ ![0, 1] hb2 (broadcastInDim ⟨2, ![1, M]⟩ ![1] hb1 B)))
          (Host.dotGeneral (F := Ideal) Dh none X1 Wr))
        (broadcastInDim ⟨2, ![N, M]⟩ ![] hz (constant (F := Ideal) ⟨0, ![]⟩ .f32 0x00000000#32)) (ix2 P q) := by
  rw [maximumf_apply, maximumf_apply,
    blockLin_eq_host Dk hk Dh hh x0 x1 wl wr b X0 X1 Wl Wr B hb hbc ht hb1 hb2 p P q h0 h1 hl hr hbias,
    broadcastInDim_scalar_apply hz _ (ix2 P q)]
  rfl

end Cert.SageLayer

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowLogSoftmax.lean ====
/-
  A row-wise log-softmax read at one entry, at the exact values.

  The log-softmax of a row z is, with m the row's maximum taken as a fold of max from -∞ and s_t = z_t - m, the value
  s_q - log (Σ_t exp s_t). A block of rows takes the maximum and the sum by reductions along axis 1 that drop the axis,
  views the result as a column and spreads it along the rows; the host does the same on the whole array with its own
  reduce and broadcast operations, joins the maximum once more with -∞ (which changes nothing, -∞ being the least
  extended real) and starts its sum from zero. Entry (p, q) of the block and entry (P, q) of the array therefore agree
  as soon as row p of the one is row P of the other. Generic in the extents.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.IdealHost
import proofs.«178790_j38628935860965_1_alg».proof.Proof.LibRowReduce
import proofs.«178790_j38628935860965_1_alg».proof.Proof.LibKeepdims

noncomputable section

open scoped BigOperators

namespace Cert.RowLogSoftmax

open Idealize.ShloMosaic Idealize.ShloMosaic.ValueIdx

variable {n N M : Nat}

/-! ## Host layout operations and row reductions at an index -/

/-- A reduction fact of the host's kind, into a shape that has an axis, is one of the kernel's kind. -/
theorem reduces_of_reducesTo {s t : Shape} {axes : List (Fin s.rank)} (h' : s.ReducesTo axes t) (hpos : 0 < t.rank) :
    s.Reduces axes t :=
  let ⟨h, hb⟩ := h'
  ⟨h, hpos, hb⟩

/-- The word of -∞ denotes the least extended real, so joining with it changes nothing. -/
theorem max_ninf (y : Ideal .f32) : max (Ideal.ofBits .f32 0xFF800000#32) y = y := by
  simp [Ideal.ofBits, Ideal.ieee]

/-- A vector [N] placed as the column [N, 1] reads, at (P, u), its entry P. -/
theorem vecColHost_apply {α : Type} (v : (⟨1, ![N]⟩ : Shape).Idx → α)
    (hb : (⟨1, ![N]⟩ : Shape).BroadcastsInDim ⟨2, ![N, 1]⟩ ![0]) (P : Fin N) (u : Fin 1) :
    broadcastInDim ⟨2, ![N, 1]⟩ ![0] hb v (ix2 P u) = v (ix1 P) :=
  broadcastInDim_apply ![0] hb v (ix2 P u) (ix1 P) (fun a => by
    match a with
    | ⟨0, _⟩ =>
      show P.val = if N = 1 then 0 else P.val
      have hP : P.val < N := P.isLt
      split_ifs with e
      · omega
      · rfl)

/-- A column [N, 1] spread along the rows to [N, M] reads, at (P, c), the column's entry P. -/
theorem colHost_apply {α : Type} (v : (⟨2, ![N, 1]⟩ : Shape).Idx → α)
    (hb : (⟨2, ![N, 1]⟩ : Shape).BroadcastsInDim ⟨2, ![N, M]⟩ ![0, 1]) (P : Fin N) (c : Fin M) :
    broadcastInDim ⟨2, ![N, M]⟩ ![0, 1] hb v (ix2 P c) = v (ix2 P (0 : Fin 1)) :=
  broadcastInDim_apply ![0, 1] hb v (ix2 P c) (ix2 P (0 : Fin 1)) (fun a => by
    match a with
    | ⟨0, _⟩ =>
      show P.val = if N = 1 then 0 else P.val
      have hP : P.val < N := P.isLt
      split_ifs with e
      · omega
      · rfl
    | ⟨1, _⟩ => rfl)

/-- The host's maximum along the rows of an [N, M] array from -∞, at row P: the fold of max over the row's entries. -/
theorem hostRowMax_apply (Z : FVec Ideal ⟨2, ![N, M]⟩ .f32) (h' : (⟨2, ![N, M]⟩ : Shape).ReducesTo [1] ⟨1, ![N]⟩)
    (hu : 0 < (⟨0, ![]⟩ : Shape).numel) (P : Fin N) :
    Host.reduce FloatOps.maximumf Z (constant (F := Ideal) ⟨0, ![]⟩ .f32 0xFF800000#32) h' hu (ix1 P)
      = (Finset.univ : Finset (Fin M)).fold max (Ideal.ofBits .f32 0xFF800000#32) (fun t => Z (ix2 P t)) := by
  have h : (⟨2, ![N, M]⟩ : Shape).Reduces [1] ⟨1, ![N]⟩ := reduces_of_reducesTo h' Nat.one_pos
  refine (Host.reduce_eq_fold_single FloatOps.maximumf Z _ h' h hu (ix1 P)).trans ?_
  refine congrArg ((Finset.univ : Finset (Fin M)).fold max (Ideal.ofBits .f32 0xFF800000#32)) (funext fun t => ?_)
  exact congrArg Z (funext fun c => Fin.ext (by
    match c with
    | ⟨0, _⟩ => rfl
    | ⟨1, _⟩ => rfl))

/-- The host's sum along the rows of an [N, M] array from zero, at row P: the sum over the row's entries. -/
theorem hostRowSum_apply (X : FVec Ideal ⟨2, ![N, M]⟩ .f32) (h' : (⟨2, ![N, M]⟩ : Shape).ReducesTo [1] ⟨1, ![N]⟩)
    (hu : 0 < (⟨0, ![]⟩ : Shape).numel) (P : Fin N) :
    Host.reduceAdd X (constant (F := Ideal) ⟨0, ![]⟩ .f32 0x00000000#32) h' hu (ix1 P) = ∑ t : Fin M, X (ix2 P t) := by
  have h : (⟨2, ![N, M]⟩ : Shape).Reduces [1] ⟨1, ![N]⟩ := reduces_of_reducesTo h' Nat.one_pos
  show Ideal.hostReduceAdd h' X (Ideal.ofBits .f32 0x00000000#32) (ix1 P) = _
  rw [Ideal.hostReduceAdd_single h' h, Ideal.ofBits_zero_f32, zero_add]
  exact Finset.sum_congr rfl fun t _ => congrArg X (funext fun c => Fin.ext (by
    match c with
    | ⟨0, _⟩ => rfl
    | ⟨1, _⟩ => rfl))

/-! ## The row-wise log-softmax -/

/-- The exponential and the logarithm, the block's and the host's, at an index: the extended reals' own. -/
theorem exp_apply {s : Shape} (v : FVec Ideal s .f32) (i : s.Idx) : exp v i = Ideal.exp (v i) := rfl
theorem log_apply {s : Shape} (v : FVec Ideal s .f32) (i : s.Idx) : log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The block's entries shifted by their row's maximum, at (p, t). -/
theorem blockShift_apply (z : FVec Ideal ⟨2, ![n, M]⟩ .f32) (hr : (⟨2, ![n, M]⟩ : Shape).Reduces [1] ⟨1, ![n]⟩)
    (hφ : FKind.Formats .f32) (hm : (0xFF800000#32 : BitVec 32) = 0xFF800000#32)
    (hsc : (⟨1, ![n]⟩ : Shape).ShapeCasts ⟨2, ![n, 1]⟩) (hbc : (⟨2, ![n, 1]⟩ : Shape).Broadcasts ⟨2, ![n, M]⟩)
    (p : Fin n) (t : Fin M) :
    subf z (broadcastTo ⟨2, ![n, M]⟩
        (shapeCast ⟨2, ![n, 1]⟩ (multiReduction .maximumf [1] ⟨1, ![n]⟩ z 0xFF800000#32 hr hφ hm) hsc) hbc) (ix2 p t)
      = z (ix2 p t) - (Finset.univ : Finset (Fin M)).fold max (Ideal.ofBits .f32 0xFF800000#32) (fun t => z (ix2 p t)) := by
  rw [subf_apply, broadcastTo_a1_ab_apply _ hbc p t, shapeCast_a_a1_apply _ hsc p 0,
    multiReduction_maximumf_row z hr hφ hm p]

/-- The block's log-softmax at entry (p, q). -/
theorem blockLogSoftmax_apply (z : FVec Ideal ⟨2, ![n, M]⟩ .f32) (hr : (⟨2, ![n, M]⟩ : Shape).Reduces [1] ⟨1, ![n]⟩)
    (hφ : FKind.Formats .f32) (hm : (0xFF800000#32 : BitVec 32) = 0xFF800000#32)
    (h0 : (0x00000000#32 : BitVec 32) = 0x00000000#32)
    (hsc : (⟨1, ![n]⟩ : Shape).ShapeCasts ⟨2, ![n, 1]⟩) (hbc : (⟨2, ![n, 1]⟩ : Shape).Broadcasts ⟨2, ![n, M]⟩)
    (p : Fin n) (q : Fin M) :
    subf
        (subf z (broadcastTo ⟨2, ![n, M]⟩
          (shapeCast ⟨2, ![n, 1]⟩ (multiReduction .maximumf [1] ⟨1, ![n]⟩ z 0xFF800000#32 hr hφ hm) hsc) hbc))
        (broadcastTo ⟨2, ![n, M]⟩ (log (shapeCast ⟨2, ![n, 1]⟩ (multiReduction .add [1] ⟨1, ![n]⟩
          (exp (subf z (broadcastTo ⟨2, ![n, M]⟩
            (shapeCast ⟨2, ![n, 1]⟩ (multiReduction .maximumf [1] ⟨1, ![n]⟩ z 0xFF800000#32 hr hφ hm) hsc) hbc)))
          0x00000000#32 hr hφ h0) hsc)) hbc) (ix2 p q)
      = (z (ix2 p q) - (Finset.univ : Finset (Fin M)).fold max (Ideal.ofBits .f32 0xFF800000#32) (fun t => z (ix2 p t)))
        - Ideal.log (∑ t : Fin M, Ideal.exp
            (z (ix2 p t) - (Finset.univ : Finset (Fin M)).fold max (Ideal.ofBits .f32 0xFF800000#32) (fun t => z (ix2 p t)))) := by
  rw [subf_apply, blockShift_apply z hr hφ hm hsc hbc p q, broadcastTo_a1_ab_apply _ hbc p q]
  rw [log_apply, shapeCast_a_a1_apply _ hsc p 0, multiReduction_add_row _ hr hφ h0 p]
  refine congrArg (fun s => _ - Ideal.log s) (Finset.sum_congr rfl fun t _ => ?_)
  rw [exp_apply, blockShift_apply z hr hφ hm hsc hbc p t]

/-- The host's entries shifted by their row's maximum, at (P, t): the further join with -∞ changes nothing. -/
theorem hostShift_apply (Z : FVec Ideal ⟨2, ![N, M]⟩ .f32) (h' : (⟨2, ![N, M]⟩ : Shape).ReducesTo [1] ⟨1, ![N]⟩)
    (hu : 0 < (⟨0, ![]⟩ : Shape).numel) (hbs : (⟨0, ![]⟩ : Shape).BroadcastsInDim ⟨1, ![N]⟩ ![])
    (hb0 : (⟨1, ![N]⟩ : Shape).BroadcastsInDim ⟨2, ![N, 1]⟩ ![0])
    (hb01 : (⟨2, ![N, 1]⟩ : Shape).BroadcastsInDim ⟨2, ![N, M]⟩ ![0, 1]) (P : Fin N) (t : Fin M) :
    subf Z (broadcastInDim ⟨2, ![N, M]⟩ ![0, 1] hb01 (broadcastInDim ⟨2, ![N, 1]⟩ ![0] hb0
        (maximumf (broadcastInDim ⟨1, ![N]⟩ ![] hbs (constant (F := Ideal) ⟨0, ![]⟩ .f32 0xFF800000#32))
          (Host.reduce FloatOps.maximumf Z (constant (F := Ideal) ⟨0, ![]⟩ .f32 0xFF800000#32) h' hu)))) (ix2 P t)
      = Z (ix2 P t) - (Finset.univ : Finset (Fin M)).fold max (Ideal.ofBits .f32 0xFF800000#32) (fun t => Z (ix2 P t)) := by
  rw [subf_apply, colHost_apply _ hb01 P t, vecColHost_apply _ hb0 P 0, maximumf_apply, hostRowMax_apply Z h' hu P,
    broadcastInDim_scalar_apply hbs _ (ix1 P), constant_apply, max_ninf]

/-- The host's log-softmax at entry (P, q). -/
theorem hostLogSoftmax_apply (Z : FVec Ideal ⟨2, ![N, M]⟩ .f32) (h' : (⟨2, ![N, M]⟩ : Shape).ReducesTo [1] ⟨1, ![N]⟩)
    (hu : 0 < (⟨0, ![]⟩ : Shape).numel) (hbs : (⟨0, ![]⟩ : Shape).BroadcastsInDim ⟨1, ![N]⟩ ![])
    (hb0 : (⟨1, ![N]⟩ : Shape).BroadcastsInDim ⟨2, ![N, 1]⟩ ![0])
    (hb01 : (⟨2, ![N, 1]⟩ : Shape).BroadcastsInDim ⟨2, ![N, M]⟩ ![0, 1]) (P : Fin N) (q : Fin M) :
    subf
        (subf Z (broadcastInDim ⟨2, ![N, M]⟩ ![0, 1] hb01 (broadcastInDim ⟨2, ![N, 1]⟩ ![0] hb0
          (maximumf (broadcastInDim ⟨1, ![N]⟩ ![] hbs (constant (F := Ideal) ⟨0, ![]⟩ .f32 0xFF800000#32))
            (Host.reduce FloatOps.maximumf Z (constant (F := Ideal) ⟨0, ![]⟩ .f32 0xFF800000#32) h' hu)))))
        (broadcastInDim ⟨2, ![N, M]⟩ ![0, 1] hb01 (Host.log (broadcastInDim ⟨2, ![N, 1]⟩ ![0] hb0
          (Host.reduceAdd
            (Host.exp (subf Z (broadcastInDim ⟨2, ![N, M]⟩ ![0, 1] hb01 (broadcastInDim ⟨2, ![N, 1]⟩ ![0] hb0
              (maximumf (broadcastInDim ⟨1, ![N]⟩ ![] hbs (constant (F := Ideal) ⟨0, ![]⟩ .f32 0xFF800000#32))
                (Host.reduce FloatOps.maximumf Z (constant (F := Ideal) ⟨0, ![]⟩ .f32 0xFF800000#32) h' hu))))))
            (constant (F := Ideal) ⟨0, ![]⟩ .f32 0x00000000#32) h' hu)))) (ix2 P q)
      = (Z (ix2 P q) - (Finset.univ : Finset (Fin M)).fold max (Ideal.ofBits .f32 0xFF800000#32) (fun t => Z (ix2 P t)))
        - Ideal.log (∑ t : Fin M, Ideal.exp
            (Z (ix2 P t) - (Finset.univ : Finset (Fin M)).fold max (Ideal.ofBits .f32 0xFF800000#32) (fun t => Z (ix2 P t)))) := by
  rw [subf_apply, hostShift_apply Z h' hu hbs hb0 hb01 P q, colHost_apply _ hb01 P q]
  rw [hostLog_apply, vecColHost_apply _ hb0 P 0, hostRowSum_apply _ h' hu P]
  refine congrArg (fun s => _ - Ideal.log s) (Finset.sum_congr rfl fun t _ => ?_)
  rw [hostExp_apply, hostShift_apply Z h' hu hbs hb0 hb01 P t]

/-- Block against array: when row p of the block `z` is row P of the array `Z`, entry (p, q) of the block's
    log-softmax is entry (P, q) of the host's. -/
theorem blockLogSoftmax_eq_host (z : FVec Ideal ⟨2, ![n, M]⟩ .f32) (Z : FVec Ideal ⟨2, ![N, M]⟩ .f32)
    (hr : (⟨2, ![n, M]⟩ : Shape).Reduces [1] ⟨1, ![n]⟩)
    (hφ : FKind.Formats .f32) (hm : (0xFF800000#32 : BitVec 32) = 0xFF800000#32)
    (h0 : (0x00000000#32 : BitVec 32) = 0x00000000#32)
    (hsc : (⟨1, ![n]⟩ : Shape).ShapeCasts ⟨2, ![n, 1]⟩) (hbc : (⟨2, ![n, 1]⟩ : Shape).Broadcasts ⟨2, ![n, M]⟩)
    (h' : (⟨2, ![N, M]⟩ : Shape).ReducesTo [1] ⟨1, ![N]⟩)
    (hu : 0 < (⟨0, ![]⟩ : Shape).numel) (hbs : (⟨0, ![]⟩ : Shape).BroadcastsInDim ⟨1, ![N]⟩ ![])
    (hb0 : (⟨1, ![N]⟩ : Shape).BroadcastsInDim ⟨2, ![N, 1]⟩ ![0])
    (hb01 : (⟨2, ![N, 1]⟩ : Shape).BroadcastsInDim ⟨2, ![N, M]⟩ ![0, 1])
    (p : Fin n) (P : Fin N) (q : Fin M) (hz : ∀ t : Fin M, z (ix2 p t) = Z (ix2 P t)) :
    subf
        (subf z (broadcastTo ⟨2, ![n, M]⟩
          (shapeCast ⟨2, ![n, 1]⟩ (multiReduction .maximumf [1] ⟨1, ![n]⟩ z 0xFF800000#32 hr hφ hm) hsc) hbc))
        (broadcastTo ⟨2, ![n, M]⟩ (log (shapeCast ⟨2, ![n, 1]⟩ (multiReduction .add [1] ⟨1, ![n]⟩
          (exp (subf z (broadcastTo ⟨2, ![n, M]⟩
            (shapeCast ⟨2, ![n, 1]⟩ (multiReduction .maximumf [1] ⟨1, ![n]⟩ z 0xFF800000#32 hr hφ hm) hsc) hbc)))
          0x00000000#32 hr hφ h0) hsc)) hbc) (ix2 p q)
      = subf
        (subf Z (broadcastInDim ⟨2, ![N, M]⟩ ![0, 1] hb01 (broadcastInDim ⟨2, ![N, 1]⟩ ![0] hb0
          (maximumf (broadcastInDim ⟨1, ![N]⟩ ![] hbs (constant (F := Ideal) ⟨0, ![]⟩ .f32 0xFF800000#32))
            (Host.reduce FloatOps.maximumf Z (constant (F := Ideal) ⟨0, ![]⟩ .f32 0xFF800000#32) h' hu)))))
        (broadcastInDim ⟨2, ![N, M]⟩ ![0, 1] hb01 (Host.log (broadcastInDim ⟨2, ![N, 1]⟩ ![0] hb0
          (Host.reduceAdd
            (Host.exp (subf Z (broadcastInDim ⟨2, ![N, M]⟩ ![0, 1] hb01 (broadcastInDim ⟨2, ![N, 1]⟩ ![0] hb0
              (maximumf (broadcastInDim ⟨1, ![N]⟩ ![] hbs (constant (F := Ideal) ⟨0, ![]⟩ .f32 0xFF800000#32))
                (Host.reduce FloatOps.maximumf Z (constant (F := Ideal) ⟨0, ![]⟩ .f32 0xFF800000#32) h' hu))))))
            (constant (F := Ideal) ⟨0, ![]⟩ .f32 0x00000000#32) h' hu)))) (ix2 P q) := by
  rw [blockLogSoftmax_apply z hr hφ hm h0 hsc hbc p q, hostLogSoftmax_apply Z h' hu hbs hb0 hb01 P q]
  have hrow : (fun t => z (ix2 p t)) = fun t => Z (ix2 P t) := funext hz
  rw [hrow, hz q]
  exact congrArg (fun s => _ - Ideal.log s) (Finset.sum_congr rfl fun t _ => by rw [hz t])

end Cert.RowLogSoftmax

end
-- ==== Proof.LayerEntry.lean ====
/-
  Each dense layer of the network read at one entry: a block of 5000 rows on the matrix unit against the whole array of
  100000 rows on the host.

  Both hidden layers are max ((X0 · Wl + b) + X1 · Wr) 0 and the output layer is the row-wise log-softmax of
  (X0 · Wl + b) + X1 · Wr. A block computes (x0 · wl + x1 · wr) + b on bf16 copies of its operands, which at the exact
  values are the operands themselves. When row p of each block operand is row P of the corresponding array and the weights
  and the bias agree, entry (p, q) of the block is entry (P, q) of the host's layer: for the hidden layers by
  a + c + b = a + b + c on the extended reals, for the output layer because the whole row p of the block's
  pre-activation is row P of the host's, and a log-softmax entry depends on its row only.
-/
import proofs.«178790_j38628935860965_1_alg».proof.Proof.Gen.KernelIdeal.Skeleton
import proofs.«178790_j38628935860965_1_alg».proof.Proof.HostLayers
import proofs.«178790_j38628935860965_1_alg».proof.Proof.LibSageLinear
import proofs.«178790_j38628935860965_1_alg».proof.Proof.LibRowLogSoftmax

noncomputable section

namespace Cert.Sage

open Idealize.ShloMosaic Idealize.ShloMosaic.ValueIdx

/-- The block's product [5000, 128] × [128, 128] contracts axis 1 against axis 0 and has no batch axis. -/
theorem plain_block128 : Cert.LibPlainDot.Plain Cert.KernelIdeal.dot_S5000x128_S128x128_S5000x128_1_0_0_1_n_n :=
  ⟨rfl, rfl, rfl, rfl, rfl, rfl⟩

/-- So does the block's product [5000, 128] × [128, 16]. -/
theorem plain_block16 : Cert.LibPlainDot.Plain Cert.KernelIdeal.dot_S5000x128_S128x16_S5000x16_1_0_0_1_n_n :=
  ⟨rfl, rfl, rfl, rfl, rfl, rfl⟩

/-- So does the host's product [100000, 128] × [128, 128]. -/
theorem plain_host128 : Cert.LibPlainDot.Plain Cert.ReferenceIdeal.dot_S100000x128_S128x128_S100000x128_1_0_0_1_n_n :=
  ⟨rfl, rfl, rfl, rfl, rfl, rfl⟩

/-- So does the host's product [100000, 128] × [128, 16]. -/
theorem plain_host16 : Cert.LibPlainDot.Plain Cert.ReferenceIdeal.dot_S100000x128_S128x16_S100000x16_1_0_0_1_n_n :=
  ⟨rfl, rfl, rfl, rfl, rfl, rfl⟩

/-- First hidden layer: entry (p, q) of a block is entry (P, q) of the host's layer when row p of the block's operands is
    row P of the arrays and column q of the weights and entry q of the bias agree. -/
theorem relu_entry0 (x0 x1 : Vec Ideal Cert.KernelIdeal.S5000x128 .f32) (wl wr : Vec Ideal Cert.KernelIdeal.S128x128 .f32)
    (b : Vec Ideal Cert.KernelIdeal.S1x128 .f32)
    (X0 X1 : FVec Ideal Cert.ReferenceIdeal.S100000x128 .f32) (Wl Wr : FVec Ideal Cert.ReferenceIdeal.S128x128 .f32)
    (B : FVec Ideal Cert.ReferenceIdeal.S128 .f32)
    (p : Fin 5000) (P : Fin 100000) (q : Fin 128)
    (h0 : ∀ k : Fin 128, x0 (ix2 p k) = X0 (ix2 P k)) (h1 : ∀ k : Fin 128, x1 (ix2 p k) = X1 (ix2 P k))
    (hl : ∀ k : Fin 128, wl (ix2 k q) = Wl (ix2 k q)) (hr : ∀ k : Fin 128, wr (ix2 k q) = Wr (ix2 k q))
    (hb : b (ix2 (0 : Fin 1) q) = B (ix1 q)) :
    Cert.KernelIdeal.Gen.k0_pay1 (F := Ideal) x0 x1 wl wr b (ix2 p q) = hostRelu (F := Ideal) X0 X1 Wl Wr B (ix2 P q) := by
  unfold Cert.KernelIdeal.Gen.k0_pay1 hostRelu hostLin128
  exact Cert.SageLayer.blockRelu_eq_host (n := 5000) (N := 100000) (K := 128) (M := 128) _ plain_block128 _ plain_host128
    (shapeCast Cert.KernelIdeal.S5000x128 x0 _) x1 wl wr b X0 X1 Wl Wr B _ _ _ _ _ _ p P q
    (fun k => (congrFun (shapeCast_self x0 _) (ix2 p k)).trans (h0 k)) h1 hl hr hb

/-- Second hidden layer: the same statement for the second call of the same kernel body. -/
theorem relu_entry1 (x0 x1 : Vec Ideal Cert.KernelIdeal.S5000x128 .f32) (wl wr : Vec Ideal Cert.KernelIdeal.S128x128 .f32)
    (b : Vec Ideal Cert.KernelIdeal.S1x128 .f32)
    (X0 X1 : FVec Ideal Cert.ReferenceIdeal.S100000x128 .f32) (Wl Wr : FVec Ideal Cert.ReferenceIdeal.S128x128 .f32)
    (B : FVec Ideal Cert.ReferenceIdeal.S128 .f32)
    (p : Fin 5000) (P : Fin 100000) (q : Fin 128)
    (h0 : ∀ k : Fin 128, x0 (ix2 p k) = X0 (ix2 P k)) (h1 : ∀ k : Fin 128, x1 (ix2 p k) = X1 (ix2 P k))
    (hl : ∀ k : Fin 128, wl (ix2 k q) = Wl (ix2 k q)) (hr : ∀ k : Fin 128, wr (ix2 k q) = Wr (ix2 k q))
    (hb : b (ix2 (0 : Fin 1) q) = B (ix1 q)) :
    Cert.KernelIdeal.Gen.k1_pay1 (F := Ideal) x0 x1 wl wr b (ix2 p q) = hostRelu (F := Ideal) X0 X1 Wl Wr B (ix2 P q) := by
  unfold Cert.KernelIdeal.Gen.k1_pay1 hostRelu hostLin128
  exact Cert.SageLayer.blockRelu_eq_host (n := 5000) (N := 100000) (K := 128) (M := 128) _ plain_block128 _ plain_host128
    (shapeCast Cert.KernelIdeal.S5000x128 x0 _) x1 wl wr b X0 X1 Wl Wr B _ _ _ _ _ _ p P q
    (fun k => (congrFun (shapeCast_self x0 _) (ix2 p k)).trans (h0 k)) h1 hl hr hb

/-- Output layer: entry (p, q) of a block is entry (P, q) of the host's layer when row p of the block's operands is row P
    of the arrays and the weights and the bias agree everywhere (the whole row of the pre-activation enters). -/
theorem logsm_entry (x0 x1 : Vec Ideal Cert.KernelIdeal.S5000x128 .f32) (wl wr : Vec Ideal Cert.KernelIdeal.S128x16 .f32)
    (b : Vec Ideal Cert.KernelIdeal.S1x16 .f32)
    (X0 X1 : FVec Ideal Cert.ReferenceIdeal.S100000x128 .f32) (Wl Wr : FVec Ideal Cert.ReferenceIdeal.S128x16 .f32)
    (B : FVec Ideal Cert.ReferenceIdeal.S16 .f32)
    (p : Fin 5000) (P : Fin 100000) (q : Fin 16)
    (h0 : ∀ k : Fin 128, x0 (ix2 p k) = X0 (ix2 P k)) (h1 : ∀ k : Fin 128, x1 (ix2 p k) = X1 (ix2 P k))
    (hl : ∀ (k : Fin 128) (j : Fin 16), wl (ix2 k j) = Wl (ix2 k j))
    (hr : ∀ (k : Fin 128) (j : Fin 16), wr (ix2 k j) = Wr (ix2 k j))
    (hb : ∀ j : Fin 16, b (ix2 (0 : Fin 1) j) = B (ix1 j)) :
    Cert.KernelIdeal.Gen.k2_pay1 (F := Ideal) x0 x1 wl wr b (ix2 p q) = hostLogsm (F := Ideal) X0 X1 Wl Wr B (ix2 P q) := by
  unfold Cert.KernelIdeal.Gen.k2_pay1 hostLogsm hostLogSoftmax hostLin16
  exact Cert.RowLogSoftmax.blockLogSoftmax_eq_host (n := 5000) (N := 100000) (M := 16) _ _ _ _ _ _ _ _ _ _ _ _ _ p P q
    (fun t => Cert.SageLayer.blockLin_eq_host (n := 5000) (N := 100000) (K := 128) (M := 16) _ plain_block16 _ plain_host16
      (shapeCast Cert.KernelIdeal.S5000x128 x0 _) (shapeCast Cert.KernelIdeal.S5000x128 x1 _) wl wr b X0 X1 Wl Wr B
      _ _ _ _ _ p P t
      (fun k => (congrFun (shapeCast_self x0 _) (ix2 p k)).trans (h0 k))
      (fun k => (congrFun (shapeCast_self x1 _) (ix2 p k)).trans (h1 k))
      (fun k => hl k t) (fun k => hr k t) (hb t))

end Cert.Sage

end
-- ==== Proof.Region0.lean ====
/-
  Region 0: the hidden layer of the item nodes computed block by block, as one whole array.

  The region runs the dense-layer kernel at 20 grid points; point `t` reads rows 5000·t … 5000·t + 4999 of the aggregated
  features and of the destination features (both weight matrices and the bias row whole) and writes the same rows of the
  result. Entry (p, q) of the block a point writes depends on row p of its two row blocks only, and equals entry
  (5000·t + p, q) of the host-form layer of the whole arrays; the 20 row blocks tile the result, so after the region the
  result array IS the host-form layer of the arrays the region found.
-/
import proofs.«178790_j38628935860965_1_alg».proof.Proof.Gen.KernelIdeal.Frame
import proofs.«178790_j38628935860965_1_alg».proof.Proof.HostLayers
import proofs.«178790_j38628935860965_1_alg».proof.Proof.LayerEntry
import Idealize.ShloMosaic.Lib.Pipeline.Value
import Idealize.ShloMosaic.Lib.ValueIdx

set_option maxRecDepth 16384

noncomputable section

namespace Cert.Sage.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, block column 0; the
    weights and the bias row at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- WHAT POINT `t` WRITES BACK is block `t` of the host-form layer of the arrays the region found. -/
theorem flushed_eq (c : Dev nD) (B : FVec Ideal Cert.ReferenceIdeal.S128 .f32)
    (hB : ∀ q : Fin 128, V c main_v28 (ix2 (0 : Fin 1) q) = B (ix1 q)) (t : Fin cfg0.N) :
    (dat0 V c).flushed 5 t = ((cfg0.win 5).blk t).view.read (Elt Ideal)
      (hostRelu (F := Ideal) (V c main_v27) (V c main_arg1) (V c main_arg6) (V c main_arg8) B) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have ht := t_lt t
  funext j
  obtain ⟨p, q, rfl⟩ : ∃ (p : Fin 5000) (q : Fin 128), j = ix2 p q := ⟨j 0, j 1, eq_ix2 j⟩
  have hemb : ((cfg0.win 5).blk t).view.emb (ix2 p q) = ix2 (⟨5000 * t.val + p.val, by have := p.isLt; omega⟩ : Fin 100000) q := by
    funext a; apply Fin.ext
    match a with
    | ⟨0, _⟩ => show win0_5.index t (0 : Fin 2) * 5000 + 1 * p.val = 5000 * t.val + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = hostRelu (F := Ideal) (V c main_v27) (V c main_arg1) (V c main_arg6) (V c main_arg8) B (((cfg0.win 5).blk t).view.emb (ix2 p q))
  rw [hemb]
  refine Cert.Sage.relu_entry0 (iblk0 V c 0 t) (iblk0 V c 1 t) (iblk0 V c 2 t) (iblk0 V c 3 t) (iblk0 V c 4 t)
    (V c main_v27) (V c main_arg1) (V c main_arg6) (V c main_arg8) B p _ q ?_ ?_ ?_ ?_ ?_
  · intro k
    show V c main_v27 (((cfg0.win 0).blk t).view.emb (ix2 p k)) = V c main_v27 (ix2 _ k)
    refine congrArg (V c main_v27) ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * k.val = k.val; omega
  · intro k
    show V c main_arg1 (((cfg0.win 1).blk t).view.emb (ix2 p k)) = V c main_arg1 (ix2 _ k)
    refine congrArg (V c main_arg1) ?_
    funext a; apply Fin.ext
    match a with
    | ⟨0, _⟩ => show win0_1.index t (0 : Fin 2) * 5000 + 1 * p.val = 5000 * t.val + p.val; omega
    | ⟨1, _⟩ => show win0_1.index t (1 : Fin 2) * 128 + 1 * k.val = k.val; omega
  · intro k
    show V c main_arg6 (((cfg0.win 2).blk t).view.emb (ix2 k q)) = V c main_arg6 (ix2 k q)
    refine congrArg (V c main_arg6) ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  · intro k
    show V c main_arg8 (((cfg0.win 3).blk t).view.emb (ix2 k q)) = V c main_arg8 (ix2 k q)
    refine congrArg (V c main_arg8) ?_
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  · show V c main_v28 (((cfg0.win 4).blk t).view.emb (ix2 (0 : Fin 1) q)) = B (ix1 q)
    rw [← hB q]
    refine congrArg (V c main_v28) ?_
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * q.val = q.val; omega

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v29).slice (win0_5.rect t)).set ↔ _
  rw [View.set_slice_whole, Rect.mem_set_unit]
  exact Iff.rfl

/-- The 20 row blocks tile the result: row `r` is in the block of point `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk]
  obtain ⟨-, -, -, -, -, -, -, -, -, -, e50, e51⟩ := idx_facts ⟨(i 0).val / 5000, by rw [hN]; omega⟩
  intro a
  match a with
  | ⟨0, _⟩ =>
    show win0_5.index ⟨(i 0).val / 5000, _⟩ (0 : Fin 2) * 5000 ≤ (i 0).val ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val ∧ (i 1).val < win0_5.index ⟨(i 0).val / 5000, _⟩ (1 : Fin 2) * 128 + 128
    rw [e51]; omega

/-- THE RESULT ARRAY after the region: the host-form layer of the arrays the region found. -/
theorem final (c : Dev nD) (B : FVec Ideal Cert.ReferenceIdeal.S128 .f32)
    (hB : ∀ q : Fin 128, V c main_v28 (ix2 (0 : Fin 1) q) = B (ix1 q)) :
    (dat0 V c).arrAt 5 cfg0.N = hostRelu (F := Ideal) (V c main_v27) (V c main_arg1) (V c main_arg6) (V c main_arg8) B :=
  (dat0 V c).arrAt_eq_of_cover 5 _ (fun t _ => flushed_eq V c B hB t) cover

end Cert.Sage.Region0

end
-- ==== Proof.Region1.lean ====
/-
  Region 1: the hidden layer of the user nodes computed block by block, as one whole array.

  The region runs the dense-layer kernel at 20 grid points; point `t` reads rows 5000·t … 5000·t + 4999 of the aggregated
  features and of the destination features (both weight matrices and the bias row whole) and writes the same rows of the
  result. Entry (p, q) of the block a point writes depends on row p of its two row blocks only, and equals entry
  (5000·t + p, q) of the host-form layer of the whole arrays; the 20 row blocks tile the result, so after the region the
  result array IS the host-form layer of the arrays the region found.
-/
import proofs.«178790_j38628935860965_1_alg».proof.Proof.Gen.KernelIdeal.Frame
import proofs.«178790_j38628935860965_1_alg».proof.Proof.HostLayers
import proofs.«178790_j38628935860965_1_alg».proof.Proof.LayerEntry
import Idealize.ShloMosaic.Lib.Pipeline.Value
import Idealize.ShloMosaic.Lib.ValueIdx

set_option maxRecDepth 16384

noncomputable section

namespace Cert.Sage.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, block column 0; the
    weights and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 20 := lt_of_lt_of_eq t.isLt N_1

/-- WHAT POINT `t` WRITES BACK is block `t` of the host-form layer of the arrays the region found. -/
theorem flushed_eq (c : Dev nD) (B : FVec Ideal Cert.ReferenceIdeal.S128 .f32)
    (hB : ∀ q : Fin 128, V c main_v58 (ix2 (0 : Fin 1) q) = B (ix1 q)) (t : Fin cfg1.N) :
    (dat1 V c).flushed 5 t = ((cfg1.win 5).blk t).view.read (Elt Ideal)
      (hostRelu (F := Ideal) (V c main_v57) (V c main_arg0) (V c main_arg9) (V c main_arg11) B) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  have ht := t_lt t
  funext j
  obtain ⟨p, q, rfl⟩ : ∃ (p : Fin 5000) (q : Fin 128), j = ix2 p q := ⟨j 0, j 1, eq_ix2 j⟩
  have hemb : ((cfg1.win 5).blk t).view.emb (ix2 p q) = ix2 (⟨5000 * t.val + p.val, by have := p.isLt; omega⟩ : Fin 100000) q := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  show k1_pay1 (F := Ideal) (iblk1 V c 0 t) (iblk1 V c 1 t) (iblk1 V c 2 t) (iblk1 V c 3 t) (iblk1 V c 4 t) (ix2 p q)
    = hostRelu (F := Ideal) (V c main_v57) (V c main_arg0) (V c main_arg9) (V c main_arg11) B (((cfg1.win 5).blk t).view.emb (ix2 p q))
  rw [hemb]
  refine Cert.Sage.relu_entry1 (iblk1 V c 0 t) (iblk1 V c 1 t) (iblk1 V c 2 t) (iblk1 V c 3 t) (iblk1 V c 4 t)
    (V c main_v57) (V c main_arg0) (V c main_arg9) (V c main_arg11) B p _ q ?_ ?_ ?_ ?_ ?_
  · intro k
    show V c main_v57 (((cfg1.win 0).blk t).view.emb (ix2 p k)) = V c main_v57 (ix2 _ k)
    refine congrArg (V c main_v57) ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  · intro k
    show V c main_arg0 (((cfg1.win 1).blk t).view.emb (ix2 p k)) = V c main_arg0 (ix2 _ k)
    refine congrArg (V c main_arg0) ?_
    funext a; apply Fin.ext
    match a with
    | ⟨0, _⟩ => show win1_1.index t (0 : Fin 2) * 5000 + 1 * p.val = 5000 * t.val + p.val; omega
    | ⟨1, _⟩ => show win1_1.index t (1 : Fin 2) * 128 + 1 * k.val = k.val; omega
  · intro k
    show V c main_arg9 (((cfg1.win 2).blk t).view.emb (ix2 k q)) = V c main_arg9 (ix2 k q)
    refine congrArg (V c main_arg9) ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  · intro k
    show V c main_arg11 (((cfg1.win 3).blk t).view.emb (ix2 k q)) = V c main_arg11 (ix2 k q)
    refine congrArg (V c main_arg11) ?_
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  · show V c main_v58 (((cfg1.win 4).blk t).view.emb (ix2 (0 : Fin 1) q)) = B (ix1 q)
    rw [← hB q]
    refine congrArg (V c main_v58) ?_
    funext a; apply Fin.ext
    match a with
    | ⟨0, _⟩ => show win1_4.index t (0 : Fin 2) * 1 + 1 * (0 : Fin 1).val = (0 : Fin 1).val; omega
    | ⟨1, _⟩ => show win1_4.index t (1 : Fin 2) * 128 + 1 * q.val = q.val; omega

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v59).slice (win1_5.rect t)).set ↔ _
  rw [View.set_slice_whole, Rect.mem_set_unit]
  exact Iff.rfl

/-- The 20 row blocks tile the result: row `r` is in the block of point `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_5 _, ?_⟩
  rw [mem_blk]
  obtain ⟨-, -, -, -, -, -, -, -, -, -, e50, e51⟩ := idx_facts ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e51]; omega

/-- THE RESULT ARRAY after the region: the host-form layer of the arrays the region found. -/
theorem final (c : Dev nD) (B : FVec Ideal Cert.ReferenceIdeal.S128 .f32)
    (hB : ∀ q : Fin 128, V c main_v58 (ix2 (0 : Fin 1) q) = B (ix1 q)) :
    (dat1 V c).arrAt 5 cfg1.N = hostRelu (F := Ideal) (V c main_v57) (V c main_arg0) (V c main_arg9) (V c main_arg11) B :=
  (dat1 V c).arrAt_eq_of_cover 5 _ (fun t _ => flushed_eq V c B hB t) cover

end Cert.Sage.Region1

end
-- ==== Proof.Region2.lean ====
/-
  Region 2: the output layer of the user nodes (with its row-wise log-softmax) computed block by block, as one whole array.

  The region runs the dense-layer kernel at 20 grid points; point `t` reads rows 5000·t … 5000·t + 4999 of the aggregated
  features and of the destination features (both weight matrices and the bias row whole) and writes the same rows of the
  result. Entry (p, q) of the block a point writes depends on row p of its two row blocks only (the maximum and the sum of the log-softmax run along that row), and equals entry
  (5000·t + p, q) of the host-form layer of the whole arrays; the 20 row blocks tile the result, so after the region the
  result array IS the host-form layer of the arrays the region found.
-/
import proofs.«178790_j38628935860965_1_alg».proof.Proof.Gen.KernelIdeal.Frame
import proofs.«178790_j38628935860965_1_alg».proof.Proof.HostLayers
import proofs.«178790_j38628935860965_1_alg».proof.Proof.LayerEntry
import Idealize.ShloMosaic.Lib.Pipeline.Value
import Idealize.ShloMosaic.Lib.ValueIdx

set_option maxRecDepth 16384

noncomputable section

namespace Cert.Sage.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row `t`, block column 0; the
    weights and the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 20 := lt_of_lt_of_eq t.isLt N_2

/-- WHAT POINT `t` WRITES BACK is block `t` of the host-form layer of the arrays the region found. -/
theorem flushed_eq (c : Dev nD) (B : FVec Ideal Cert.ReferenceIdeal.S16 .f32)
    (hB : ∀ q : Fin 16, V c main_v88 (ix2 (0 : Fin 1) q) = B (ix1 q)) (t : Fin cfg2.N) :
    (dat2 V c).flushed 5 t = ((cfg2.win 5).blk t).view.read (Elt Ideal)
      (hostLogsm (F := Ideal) (V c main_v87) (V c main_v59) (V c main_arg12) (V c main_arg14) B) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x16) hz, View.ld_unit_zero (S := S1x16) hz]
  obtain ⟨e00, e01, e10, e11, e20, e21, e30, e31, e40, e41, e50, e51⟩ := idx_facts t
  have ht := t_lt t
  funext j
  obtain ⟨p, q, rfl⟩ : ∃ (p : Fin 5000) (q : Fin 16), j = ix2 p q := ⟨j 0, j 1, eq_ix2 j⟩
  have hemb : ((cfg2.win 5).blk t).view.emb (ix2 p q) = ix2 (⟨5000 * t.val + p.val, by have := p.isLt; omega⟩ : Fin 100000) q := by
    funext a; apply Fin.ext
    match a with
    | ⟨0, _⟩ => show win2_5.index t (0 : Fin 2) * 5000 + 1 * p.val = 5000 * t.val + p.val; omega
    | ⟨1, _⟩ => show win2_5.index t (1 : Fin 2) * 16 + 1 * q.val = q.val; omega
  show k2_pay1 (F := Ideal) (iblk2 V c 0 t) (iblk2 V c 1 t) (iblk2 V c 2 t) (iblk2 V c 3 t) (iblk2 V c 4 t) (ix2 p q)
    = hostLogsm (F := Ideal) (V c main_v87) (V c main_v59) (V c main_arg12) (V c main_arg14) B (((cfg2.win 5).blk t).view.emb (ix2 p q))
  rw [hemb]
  refine Cert.Sage.logsm_entry (iblk2 V c 0 t) (iblk2 V c 1 t) (iblk2 V c 2 t) (iblk2 V c 3 t) (iblk2 V c 4 t)
    (V c main_v87) (V c main_v59) (V c main_arg12) (V c main_arg14) B p _ q ?_ ?_ ?_ ?_ ?_
  · intro k
    show V c main_v87 (((cfg2.win 0).blk t).view.emb (ix2 p k)) = V c main_v87 (ix2 _ k)
    refine congrArg (V c main_v87) ?_
    funext a; apply Fin.ext
    match a with
    | ⟨0, _⟩ => show win2_0.index t (0 : Fin 2) * 5000 + 1 * p.val = 5000 * t.val + p.val; omega
    | ⟨1, _⟩ => show win2_0.index t (1 : Fin 2) * 128 + 1 * k.val = k.val; omega
  · intro k
    show V c main_v59 (((cfg2.win 1).blk t).view.emb (ix2 p k)) = V c main_v59 (ix2 _ k)
    refine congrArg (V c main_v59) ?_
    funext a; apply Fin.ext
    match a with
    | ⟨0, _⟩ => show win2_1.index t (0 : Fin 2) * 5000 + 1 * p.val = 5000 * t.val + p.val; omega
    | ⟨1, _⟩ => show win2_1.index t (1 : Fin 2) * 128 + 1 * k.val = k.val; omega
  · intro k j
    show V c main_arg12 (((cfg2.win 2).blk t).view.emb (ix2 k j)) = V c main_arg12 (ix2 k j)
    refine congrArg (V c main_arg12) ?_
    funext a; apply Fin.ext
    match a with
    | ⟨0, _⟩ => show win2_2.index t (0 : Fin 2) * 128 + 1 * k.val = k.val; omega
    | ⟨1, _⟩ => show win2_2.index t (1 : Fin 2) * 16 + 1 * j.val = j.val; omega
  · intro k j
    show V c main_arg14 (((cfg2.win 3).blk t).view.emb (ix2 k j)) = V c main_arg14 (ix2 k j)
    refine congrArg (V c main_arg14) ?_
    funext a; apply Fin.ext
    match a with
    | ⟨0, _⟩ => show win2_3.index t (0 : Fin 2) * 128 + 1 * k.val = k.val; omega
    | ⟨1, _⟩ => show win2_3.index t (1 : Fin 2) * 16 + 1 * j.val = j.val; omega
  · intro j
    show V c main_v88 (((cfg2.win 4).blk t).view.emb (ix2 (0 : Fin 1) j)) = B (ix1 j)
    rw [← hB j]
    refine congrArg (V c main_v88) ?_
    funext a; apply Fin.ext
    match a with
    | ⟨0, _⟩ => show win2_4.index t (0 : Fin 2) * 1 + 1 * (0 : Fin 1).val = (0 : Fin 1).val; omega
    | ⟨1, _⟩ => show win2_4.index t (1 : Fin 2) * 16 + 1 * j.val = j.val; omega

/-- An index of the result array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v89).slice (win2_5.rect t)).set ↔ _
  rw [View.set_slice_whole, Rect.mem_set_unit]
  exact Iff.rfl

/-- The 20 row blocks tile the result: row `r` is in the block of point `r / 5000`. -/
theorem cover (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : cfg2.N = 20 := N_2
  refine ⟨⟨(i 0).val / 5000, by rw [hN]; omega⟩, flush2_5 _, ?_⟩
  rw [mem_blk]
  obtain ⟨-, -, -, -, -, -, -, -, -, -, e50, e51⟩ := idx_facts ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, _⟩ (1 : Fin 2) * 16 ≤ (i 1).val ∧ (i 1).val < win2_5.index ⟨(i 0).val / 5000, _⟩ (1 : Fin 2) * 16 + 16
    rw [e51]; omega

/-- THE RESULT ARRAY after the region: the host-form layer of the arrays the region found. -/
theorem final (c : Dev nD) (B : FVec Ideal Cert.ReferenceIdeal.S16 .f32)
    (hB : ∀ q : Fin 16, V c main_v88 (ix2 (0 : Fin 1) q) = B (ix1 q)) :
    (dat2 V c).arrAt 5 cfg2.N = hostLogsm (F := Ideal) (V c main_v87) (V c main_v59) (V c main_arg12) (V c main_arg14) B :=
  (dat2 V c).arrAt_eq_of_cover 5 _ (fun t _ => flushed_eq V c B hB t) cover

end Cert.Sage.Region2

end
-- ==== Proof.Network.lean ====
/-
  The network as one function of its fifteen argument arrays.

  `meanAgg x ei ew` is the weighted neighbour mean both programs compute with the same host operations: the rows of `x`
  gathered at the source nodes `ei[0]` (a negative index wrapped by the node count), scaled by the edge weights,
  scatter-added at the destination nodes `ei[1]`, and divided by the number of edges arriving there, at least 1.
  It is never opened: the two programs apply it to arrays that are proved equal.
  The network is two hidden layers, one per node type, and the output layer on the user nodes, which aggregates the
  hidden item features along the item→user edges.
-/
import proofs.«178790_j38628935860965_1_alg».proof.Proof.HostLayers

noncomputable section

namespace Cert.Sage

open Cert.ReferenceIdeal Cert.ReferenceIdeal.Gen Idealize.ShloMosaic

variable {F : FTy → Type} [FloatOps F]

/-- The weighted mean of the source rows of `x` over the edges arriving at each destination node. -/
def meanAgg (x : (⟨S100000x128, .f32⟩ : BufTy).Contents (Elt F)) (ei : (⟨S2x1600000, .i32⟩ : BufTy).Contents (Elt F))
    (ew : (⟨S1600000, .f32⟩ : BufTy).Contents (Elt F)) : (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (mulf (Host.gather gather_S100000x128_S1600000x1_S1600000x128_1_0_n_n_0_1_1128 x (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))) (broadcastInDim S1600000x128 ![0, 1] bcast_S1600000x1_S1600000x128_0_1 (broadcastInDim S1600000x1 ![0] bcast_S1600000_S1600000x1_0 ew)))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- The whole network: hidden item features, hidden user features, and the output layer on the user nodes. -/
def network (x0 x1 : (⟨S100000x128, .f32⟩ : BufTy).Contents (Elt F)) (e2 e3 : (⟨S2x1600000, .i32⟩ : BufTy).Contents (Elt F))
    (w4 w5 : (⟨S1600000, .f32⟩ : BufTy).Contents (Elt F))
    (a6 : (⟨S128x128, .f32⟩ : BufTy).Contents (Elt F)) (a7 : (⟨S128, .f32⟩ : BufTy).Contents (Elt F))
    (a8 a9 : (⟨S128x128, .f32⟩ : BufTy).Contents (Elt F)) (a10 : (⟨S128, .f32⟩ : BufTy).Contents (Elt F))
    (a11 : (⟨S128x128, .f32⟩ : BufTy).Contents (Elt F)) (a12 : (⟨S128x16, .f32⟩ : BufTy).Contents (Elt F))
    (a13 : (⟨S16, .f32⟩ : BufTy).Contents (Elt F)) (a14 : (⟨S128x16, .f32⟩ : BufTy).Contents (Elt F)) :
    (⟨S100000x16, .f32⟩ : BufTy).Contents (Elt F) :=
  hostLogsm (meanAgg (hostRelu (meanAgg x0 e2 w4) x1 a6 a8 a7) e3 w5) (hostRelu (meanAgg x1 e3 w5) x0 a9 a11 a10) a12 a14 a13

end Cert.Sage

end
-- ==== Proof.Chain.lean ====
/-
  The kernel program's result as the network of its arguments.

  The buffer contents at the program's segment boundaries are followed from the launch to the return. The first host
  stretch leaves the neighbour mean of the user features and the first bias as a row; region 0 turns them, with the item
  features and two weight matrices, into the hidden item features. The second stretch and region 1 do the same for the
  user nodes. The third stretch aggregates the hidden item features, which nothing has written since region 0, and
  region 2 produces the log-softmax output from them and the hidden user features, which nothing has written since
  region 1. Every array a region or a stretch reads is either an argument, still at its launch contents, or one of these
  results.
-/
import proofs.«178790_j38628935860965_1_alg».proof.Proof.Walk
import proofs.«178790_j38628935860965_1_alg».proof.Proof.Region0
import proofs.«178790_j38628935860965_1_alg».proof.Proof.Region1
import proofs.«178790_j38628935860965_1_alg».proof.Proof.Region2
import proofs.«178790_j38628935860965_1_alg».proof.Proof.Network
import Idealize.ShloMosaic.Lib.StableHlo.Run
import Idealize.ShloMosaic.Lib.Pipeline.Value
import Idealize.ShloMosaic.Lib.ValueIdx

set_option maxRecDepth 16384

noncomputable section

namespace Cert.Sage.Chain

open Cert.KernelIdeal Cert.KernelIdeal.Gen Cert.KernelIdeal.Walk Cert.Sage
open Idealize.ShloMosaic Idealize.ShloMosaic.TcCoe Idealize.ShloMosaic.Tactic Idealize.ShloMosaic.ValueIdx Idealize.SL.Sem
open Idealize.ShloMosaic.StableHlo

variable (m : (ℓ : Loc nD τ sig) → Buf (Elt Ideal) ℓ) (ρ : Dev nD → PrngReg)

/-- A vector `[b]` viewed as the row `[1, b]` reads, at `(0, q)`, the vector's entry `q`. -/
theorem row_apply {α : Type} {b : ℕ} (x : (⟨1, ![b]⟩ : Shape).Idx → α) (h : (⟨1, ![b]⟩ : Shape).ShapeCasts ⟨2, ![1, b]⟩)
    (q : Fin b) : shapeCast ⟨2, ![1, b]⟩ x h (ix2 (0 : Fin 1) q) = x (ix1 q) :=
  shapeCast_apply x h _ _ (by
    rw [Shape.rowMajor_val_two, Shape.rowMajor_val_one]
    show q.val = (0 : Fin 1).val * b + q.val
    simp)

/-! ## The first stretch and region 0: the hidden item features -/

theorem mean0 (c : Dev nD) : W1 m ρ c (Proc.devRef .tc main_v27)
    = meanAgg (F := Ideal) (m ((c : Thread nD τ).loc main_arg0)) (m ((c : Thread nD τ).loc main_arg2)) (m ((c : Thread nD τ).loc main_arg4)) := by
  show StableHlo.after hostOps0 (W0 m ρ c) (Proc.devRef .tc main_v27) = _
  after_results_simp
  rfl

theorem bias0 (c : Dev nD) : W1 m ρ c (Proc.devRef .tc main_v28)
    = shapeCast S1x128 (m ((c : Thread nD τ).loc main_arg7)) shapeCasts_S128_S1x128 := by
  show StableHlo.after hostOps0 (W0 m ρ c) (Proc.devRef .tc main_v28) = _
  after_results
  rfl

/-- The bias row the region finds is the bias vector, entry by entry. -/
theorem biasrow0 (c : Dev nD) (q : Fin 128) : V1 m ρ c main_v28 (ix2 (0 : Fin 1) q) = (m ((c : Thread nD τ).loc main_arg7)) (ix1 q) := by
  show W1 m ρ c (Proc.devRef .tc main_v28) (ix2 (0 : Fin 1) q) = _
  rw [bias0 m ρ c]
  exact row_apply _ _ q

/-- Region 0's result: the hidden item features. -/
theorem hItem (c : Dev nD) : W2 m ρ c (Proc.devRef .tc main_v29)
    = hostRelu (F := Ideal) (meanAgg (m ((c : Thread nD τ).loc main_arg0)) (m ((c : Thread nD τ).loc main_arg2)) (m ((c : Thread nD τ).loc main_arg4))) (m ((c : Thread nD τ).loc main_arg1)) (m ((c : Thread nD τ).loc main_arg6)) (m ((c : Thread nD τ).loc main_arg8)) (m ((c : Thread nD τ).loc main_arg7)) := by
  refine (W2_arr m ρ c 5).trans ((Region0.final (V1 m ρ) c _ (biasrow0 m ρ c)).trans ?_)
  show hostRelu (F := Ideal) (W1 m ρ c (Proc.devRef .tc main_v27)) (W1 m ρ c (Proc.devRef .tc main_arg1)) (W1 m ρ c (Proc.devRef .tc main_arg6)) (W1 m ρ c (Proc.devRef .tc main_arg8)) _ = _
  rw [mean0 m ρ c, W1_arg1 m ρ c, W1_arg6 m ρ c, W1_arg8 m ρ c]

/-! ## The second stretch and region 1: the hidden user features -/

theorem mean1 (c : Dev nD) : W3 m ρ c (Proc.devRef .tc main_v57)
    = meanAgg (F := Ideal) (W2 m ρ c (Proc.devRef .tc main_arg1)) (W2 m ρ c (Proc.devRef .tc main_arg3)) (W2 m ρ c (Proc.devRef .tc main_arg5)) := by
  show StableHlo.after hostOps1 (W2 m ρ c) (Proc.devRef .tc main_v57) = _
  after_results_simp
  rfl

theorem bias1 (c : Dev nD) : W3 m ρ c (Proc.devRef .tc main_v58)
    = shapeCast S1x128 (W2 m ρ c (Proc.devRef .tc main_arg10)) shapeCasts_S128_S1x128 := by
  show StableHlo.after hostOps1 (W2 m ρ c) (Proc.devRef .tc main_v58) = _
  after_results
  rfl

theorem biasrow1 (c : Dev nD) (q : Fin 128) : V3 m ρ c main_v58 (ix2 (0 : Fin 1) q) = (m ((c : Thread nD τ).loc main_arg10)) (ix1 q) := by
  show W3 m ρ c (Proc.devRef .tc main_v58) (ix2 (0 : Fin 1) q) = _
  rw [bias1 m ρ c, W2_arg10 m ρ c]
  exact row_apply _ _ q

/-- Region 1's result: the hidden user features. -/
theorem hUser (c : Dev nD) : W4 m ρ c (Proc.devRef .tc main_v59)
    = hostRelu (F := Ideal) (meanAgg (m ((c : Thread nD τ).loc main_arg1)) (m ((c : Thread nD τ).loc main_arg3)) (m ((c : Thread nD τ).loc main_arg5))) (m ((c : Thread nD τ).loc main_arg0)) (m ((c : Thread nD τ).loc main_arg9)) (m ((c : Thread nD τ).loc main_arg11)) (m ((c : Thread nD τ).loc main_arg10)) := by
  refine (W4_arr m ρ c 5).trans ((Region1.final (V3 m ρ) c _ (biasrow1 m ρ c)).trans ?_)
  show hostRelu (F := Ideal) (W3 m ρ c (Proc.devRef .tc main_v57)) (W3 m ρ c (Proc.devRef .tc main_arg0)) (W3 m ρ c (Proc.devRef .tc main_arg9)) (W3 m ρ c (Proc.devRef .tc main_arg11)) _ = _
  rw [mean1 m ρ c, W2_arg1 m ρ c, W2_arg3 m ρ c, W2_arg5 m ρ c, W3_arg0 m ρ c, W3_arg9 m ρ c, W3_arg11 m ρ c]

/-! ## The third stretch and region 2: the output -/

theorem mean2 (c : Dev nD) : W5 m ρ c (Proc.devRef .tc main_v87)
    = meanAgg (F := Ideal) (W4 m ρ c (Proc.devRef .tc main_v29)) (W4 m ρ c (Proc.devRef .tc main_arg3)) (W4 m ρ c (Proc.devRef .tc main_arg5)) := by
  show StableHlo.after hostOps2 (W4 m ρ c) (Proc.devRef .tc main_v87) = _
  after_results_simp
  rfl

theorem bias2 (c : Dev nD) : W5 m ρ c (Proc.devRef .tc main_v88)
    = shapeCast S1x16 (W4 m ρ c (Proc.devRef .tc main_arg13)) shapeCasts_S16_S1x16 := by
  show StableHlo.after hostOps2 (W4 m ρ c) (Proc.devRef .tc main_v88) = _
  after_results
  rfl

theorem biasrow2 (c : Dev nD) (q : Fin 16) : V5 m ρ c main_v88 (ix2 (0 : Fin 1) q) = (m ((c : Thread nD τ).loc main_arg13)) (ix1 q) := by
  show W5 m ρ c (Proc.devRef .tc main_v88) (ix2 (0 : Fin 1) q) = _
  rw [bias2 m ρ c, W4_arg13 m ρ c]
  exact row_apply _ _ q

/-- THE RESULT BUFFER at the last boundary is the network of the launch contents of the arguments. -/
theorem result (c : Dev nD) : W6 m ρ c (Proc.devRef .tc main_v89) = network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W6_arr m ρ c 5).trans ((Region2.final (V5 m ρ) c _ (biasrow2 m ρ c)).trans ?_)
  show hostLogsm (F := Ideal) (W5 m ρ c (Proc.devRef .tc main_v87)) (W5 m ρ c (Proc.devRef .tc main_v59)) (W5 m ρ c (Proc.devRef .tc main_arg12)) (W5 m ρ c (Proc.devRef .tc main_arg14)) _ = _
  rw [mean2 m ρ c, W4_v29 m ρ c, W3_v29 m ρ c, hItem m ρ c, W4_arg3 m ρ c, W4_arg5 m ρ c, W5_v59 m ρ c, hUser m ρ c,
    W5_arg12 m ρ c, W5_arg14 m ρ c]
  rfl

end Cert.Sage.Chain

end
-- ==== Proof.LibHostRead.lean ====
/-
  Reading a line of host operations one operation at a time.

  A line is a list of operations, each writing one buffer. After the whole line, the buffer the k-th operation writes
  holds that operation's function of what the first k operations left, provided no later operation writes it again; and
  a buffer that no operation from the k-th on writes holds after the whole line what it held after the first k. So the
  contents of every buffer after the line can be read off stage by stage, in program order, each stage from the stages
  of its operands.

  An operation of a module-local function names its buffers through typed references, and moves contents between a
  buffer's own type and the value's type along the equation of the two. Those transports are identities; stated with
  heterogeneous equality they vanish once the typed reference is opened and its equation substituted.
-/
import Idealize.ShloMosaic.Lib.StableHlo.Run

namespace HostRead

open Idealize.ShloMosaic Idealize.ShloMosaic.StableHlo Idealize.ShloMosaic.TcCoe

variable {sig : RefSig} {τ : Topo} {Val : EltTy → Type}

/-- Each operation of `l` writes exactly the buffer listed at its place in `ys`. -/
abbrev Outs (l : List (HloOp τ sig Val)) (ys : List (Ref sig .tc)) : Prop :=
  List.Forall₂ (fun op y => op.writes = {Proc.devRef (τ := τ) .tc y}) l ys

/-- A line run after another is the two run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference not among a line's results is written by none of its operations. -/
theorem not_written {l : List (HloOp τ sig Val)} {ys : List (Ref sig .tc)} (h : Outs l ys) (r : Ref sig .tc) (hr : r ∉ ys) :
    ∀ op ∈ l, Proc.devRef (τ := τ) .tc r ∉ op.writes := by
  induction h with
  | nil => intro op hop; cases hop
  | @cons op₀ y l' ys' hw _ ih =>
    intro op hop
    rcases List.mem_cons.mp hop with rfl | hop
    · rw [hw, Finset.mem_singleton]
      exact devRef_ne_of_ne (fun e => hr (e ▸ List.mem_cons_self))
    · exact ih (fun h' => hr (List.mem_cons_of_mem _ h')) op hop

/-- A buffer none of the operations from the `k`-th on writes: after the line, what the first `k` left. -/
theorem after_take {l : List (HloOp τ sig Val)} {ys : List (Ref sig .tc)} (h : Outs l ys) (k : Nat) (r : Ref sig .tc)
    (hr : r ∉ ys.drop k) (V : Valuation τ sig Val) :
    after l V (Proc.devRef .tc r) = after (l.take k) V (Proc.devRef .tc r) := by
  have e := after_append (l.take k) (l.drop k) V
  rw [List.take_append_drop] at e
  rw [e]
  exact after_of_forall_not_mem _ _ (not_written (List.forall₂_drop k h) r hr)

/-- The buffer the `k`-th operation writes, if none after it writes it again: after the line, that operation's result
    from what the first `k` left. -/
theorem after_at {l : List (HloOp τ sig Val)} {ys : List (Ref sig .tc)} (h : Outs l ys) (k : Nat) (op : HloOp τ sig Val)
    (y : Ref sig .tc) (hk : l[k]? = some op) (hy : y ∉ ys.drop (k + 1)) (V : Valuation τ sig Val) :
    after l V (Proc.devRef .tc y) = op.result (after (l.take k) V) (Proc.devRef .tc y) := by
  rw [after_take h (k + 1) y hy V]
  have e : l.take (k + 1) = l.take k ++ [op] := by rw [List.take_succ, hk]; rfl
  rw [e, after_append]
  rfl

/-! ## Operations over typed references -/

section Typed

variable {Tx Ta Tb Tc Ty : BufTy}

/-- A constant into a typed reference's buffer: the buffer holds the constant. -/
theorem tnullary_heq (y : TRef sig Ty) (v : Ty.Contents Val) (F : Valuation τ sig Val) :
    HEq ((TRef.nullary (τ := τ) y v).result F (Proc.devRef .tc y.ref)) v := by
  obtain ⟨ry, rfl, _, _⟩ := y
  rw [nullary_result]
  exact cast_heq _ _

/-- A one-operand operation over typed references: the result buffer holds the function of the operand's contents. -/
theorem tunary_heq (x : TRef sig Tx) (y : TRef sig Ty) (f : Tx.Contents Val → Ty.Contents Val) (F : Valuation τ sig Val)
    (vx : Tx.Contents Val) (hx : HEq (F (Proc.devRef .tc x.ref)) vx) :
    HEq ((TRef.unary (τ := τ) x y f).result F (Proc.devRef .tc y.ref)) (f vx) := by
  obtain ⟨rx, rfl, _, _⟩ := x
  obtain ⟨ry, rfl, _, _⟩ := y
  obtain rfl := eq_of_heq hx
  rw [unary_result]
  exact cast_heq _ _

/-- A two-operand operation over typed references. -/
theorem tbinary_heq (a : TRef sig Ta) (b : TRef sig Tb) (y : TRef sig Ty) (f : Ta.Contents Val → Tb.Contents Val → Ty.Contents Val)
    (F : Valuation τ sig Val) (va : Ta.Contents Val) (vb : Tb.Contents Val)
    (ha : HEq (F (Proc.devRef .tc a.ref)) va) (hb : HEq (F (Proc.devRef .tc b.ref)) vb) :
    HEq ((TRef.binary (τ := τ) a b y f).result F (Proc.devRef .tc y.ref)) (f va vb) := by
  obtain ⟨ra, rfl, _, _⟩ := a
  obtain ⟨rb, rfl, _, _⟩ := b
  obtain ⟨ry, rfl, _, _⟩ := y
  obtain rfl := eq_of_heq ha
  obtain rfl := eq_of_heq hb
  rw [binary_result]
  exact cast_heq _ _

/-- A three-operand operation over typed references. -/
theorem tternary_heq (c : TRef sig Tc) (a : TRef sig Ta) (b : TRef sig Tb) (y : TRef sig Ty)
    (f : Tc.Contents Val → Ta.Contents Val → Tb.Contents Val → Ty.Contents Val)
    (F : Valuation τ sig Val) (vc : Tc.Contents Val) (va : Ta.Contents Val) (vb : Tb.Contents Val)
    (hc : HEq (F (Proc.devRef .tc c.ref)) vc) (ha : HEq (F (Proc.devRef .tc a.ref)) va) (hb : HEq (F (Proc.devRef .tc b.ref)) vb) :
    HEq ((TRef.ternary (τ := τ) c a b y f).result F (Proc.devRef .tc y.ref)) (f vc va vb) := by
  obtain ⟨rc, rfl, _, _⟩ := c
  obtain ⟨ra, rfl, _, _⟩ := a
  obtain ⟨rb, rfl, _, _⟩ := b
  obtain ⟨ry, rfl, _, _⟩ := y
  obtain rfl := eq_of_heq hc
  obtain rfl := eq_of_heq ha
  obtain rfl := eq_of_heq hb
  rw [ternary_result]
  exact cast_heq _ _

end Typed

end HostRead
-- ==== Proof.LibHostJoin.lean ====
/-
  Reading a line of host operations in one rewriting pass, through two-operand joins.

  The host's `concatenate` takes its operands as a list of (shape, array) pairs. `join2` is the join of TWO arrays
  along an axis with the two arrays as arguments of their own: the same function, restated so that what is known about
  either operand can be rewritten inside it. `host_read` reads what a buffer holds after a literal line of host
  operations (`StableHlo.after ops V` at a buffer): every operation's result at its own buffer becomes its function of
  its operands' contents, at any other buffer what was there before, every two-operand join is restated as `join2`
  on the way, the identity transports between a buffer's own type and its value's type cancel, and what is left is the operations' composed term over `V` at the buffers the line only reads.
-/
import Idealize.ShloMosaic.Lib.StableHlo.Run

noncomputable section

namespace Cert.LibHostJoin

open Idealize.ShloMosaic Idealize.ShloMosaic.StableHlo

/-- The join of two arrays along axis `a`: entry `i` comes from the first array where `i`'s coordinate on `a` is
    below the first array's extent there, from the second otherwise. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- The host's join of a two-element list is `join2` of the two arrays. -/
theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

/-- Reads `StableHlo.after ops V` at a buffer for a literal line `ops`, in one pass. -/
macro "host_read" : tactic =>
  `(tactic| (simp (disch := decide) only [after_cons, after_nil, concatenate_pair, cast_cast, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibHostJoin

end
-- ==== Proof.RefRead.lean ====
/-
  The reference program's result as the network of its arguments.

  The reference is one line of 141 host operations, read here in six consecutive stretches: three neighbour means, each
  followed by a dense layer. A stretch is read from ANY contents it may find: its last buffer holds the stretch's function
  (the shared neighbour mean, a hidden layer, the output layer) of the few buffers it reads, and every buffer it does not
  write is left as found. Chaining the six, with the arguments never written, gives the result buffer after the whole line
  as the network of the launch contents of the arguments.
-/
import proofs.«178790_j38628935860965_1_alg».proof.Proof.RefRun
import proofs.«178790_j38628935860965_1_alg».proof.Proof.Network
import proofs.«178790_j38628935860965_1_alg».proof.Proof.LibHostRead
import proofs.«178790_j38628935860965_1_alg».proof.Proof.LibHostJoin

set_option maxRecDepth 16384

noncomputable section

namespace Cert.Sage.Ref

open Cert.ReferenceIdeal Cert.ReferenceIdeal.Gen Cert.ReferenceIdeal.RunP Cert.Sage
open Idealize.ShloMosaic Idealize.ShloMosaic.TcCoe Idealize.ShloMosaic.Tactic Idealize.SL.Sem
open Idealize.ShloMosaic.StableHlo HostRead Cert.LibHostJoin

variable {F : FTy → Type} [FloatOps F]

/-! ## The buffers each stretch writes, and the buffers it leaves alone -/

/-- The buffers `opsA` writes, in order. -/
abbrev outsA : List (Ref sig .tc) := [main_v0, main_v1, main_c, main_v2, main_v3, main_c_0, main_v4, main_v5, main_v6, main_v7, main_v8, main_v9, main_v10, main_v11, main_v12, main_v13, main_cst, main_v14, main_v15, main_v16, main_cst_1, main_v17, main_v18, main_v19, main_cst_2, main_v20, main_v21, main_v22, main_cst_3, main_v23, main_v24, main_v25, main_v26, main_v27]
theorem outs_A : Outs (τ := τ) (opsA (F := F)) outsA := by
  repeat' (first | exact List.Forall₂.nil | refine List.Forall₂.cons rfl ?_)
/-- A buffer `opsA` does not write is left as found. -/
theorem keepA (V : Valuation τ sig (Elt F)) (b : Ref sig .tc) (hb : b ∉ outsA) :
    after opsA V (Proc.devRef .tc b) = V (Proc.devRef .tc b) :=
  after_of_forall_not_mem _ _ (not_written outs_A b hb)

/-- The buffers `opsB` writes, in order. -/
abbrev outsB : List (Ref sig .tc) := [main_v28, main_v29, main_v30, main_v31, main_v32, main_v33, main_call0_cst, main_call0_v0, main_v34]
theorem outs_B : Outs (τ := τ) (opsB (F := F)) outsB := by
  repeat' (first | exact List.Forall₂.nil | refine List.Forall₂.cons rfl ?_)
/-- A buffer `opsB` does not write is left as found. -/
theorem keepB (V : Valuation τ sig (Elt F)) (b : Ref sig .tc) (hb : b ∉ outsB) :
    after opsB V (Proc.devRef .tc b) = V (Proc.devRef .tc b) :=
  after_of_forall_not_mem _ _ (not_written outs_B b hb)

/-- The buffers `opsC` writes, in order. -/
abbrev outsC : List (Ref sig .tc) := [main_v35, main_v36, main_c_4, main_v37, main_v38, main_c_5, main_v39, main_v40, main_v41, main_v42, main_v43, main_v44, main_v45, main_v46, main_v47, main_v48, main_cst_6, main_v49, main_v50, main_v51, main_cst_7, main_v52, main_v53, main_v54, main_cst_8, main_v55, main_v56, main_v57, main_cst_9, main_v58, main_v59, main_v60, main_v61, main_v62]
theorem outs_C : Outs (τ := τ) (opsC (F := F)) outsC := by
  repeat' (first | exact List.Forall₂.nil | refine List.Forall₂.cons rfl ?_)
/-- A buffer `opsC` does not write is left as found. -/
theorem keepC (V : Valuation τ sig (Elt F)) (b : Ref sig .tc) (hb : b ∉ outsC) :
    after opsC V (Proc.devRef .tc b) = V (Proc.devRef .tc b) :=
  after_of_forall_not_mem _ _ (not_written outs_C b hb)

/-- The buffers `opsD` writes, in order. -/
abbrev outsD : List (Ref sig .tc) := [main_v63, main_v64, main_v65, main_v66, main_v67, main_v68, main_call1_cst, main_call1_v0, main_v69]
theorem outs_D : Outs (τ := τ) (opsD (F := F)) outsD := by
  repeat' (first | exact List.Forall₂.nil | refine List.Forall₂.cons rfl ?_)
/-- A buffer `opsD` does not write is left as found. -/
theorem keepD (V : Valuation τ sig (Elt F)) (b : Ref sig .tc) (hb : b ∉ outsD) :
    after opsD V (Proc.devRef .tc b) = V (Proc.devRef .tc b) :=
  after_of_forall_not_mem _ _ (not_written outs_D b hb)

/-- The buffers `opsE` writes, in order. -/
abbrev outsE : List (Ref sig .tc) := [main_v70, main_v71, main_c_10, main_v72, main_v73, main_c_11, main_v74, main_v75, main_v76, main_v77, main_v78, main_v79, main_v80, main_v81, main_v82, main_v83, main_cst_12, main_v84, main_v85, main_v86, main_cst_13, main_v87, main_v88, main_v89, main_cst_14, main_v90, main_v91, main_v92, main_cst_15, main_v93, main_v94, main_v95, main_v96, main_v97]
theorem outs_E : Outs (τ := τ) (opsE (F := F)) outsE := by
  repeat' (first | exact List.Forall₂.nil | refine List.Forall₂.cons rfl ?_)
/-- A buffer `opsE` does not write is left as found. -/
theorem keepE (V : Valuation τ sig (Elt F)) (b : Ref sig .tc) (hb : b ∉ outsE) :
    after opsE V (Proc.devRef .tc b) = V (Proc.devRef .tc b) :=
  after_of_forall_not_mem _ _ (not_written outs_E b hb)

/-- The buffers `opsF` writes, in order. -/
abbrev outsF : List (Ref sig .tc) := [main_v98, main_v99, main_v100, main_v101, main_v102, main_v103, main_call2_cst, main_call2_v0, main_call2_cst_0, main_call2_v1, main_call2_v2, main_call2_v3, main_call2_v4, main_call2_v5, main_call2_v6, main_call2_cst_1, main_call2_v7, main_call2_v8, main_call2_v9, main_call2_v10, main_v104]
theorem outs_F : Outs (τ := τ) (opsF (F := F)) outsF := by
  repeat' (first | exact List.Forall₂.nil | refine List.Forall₂.cons rfl ?_)
/-- A buffer `opsF` does not write is left as found. -/
theorem keepF (V : Valuation τ sig (Elt F)) (b : Ref sig .tc) (hb : b ∉ outsF) :
    after opsF V (Proc.devRef .tc b) = V (Proc.devRef .tc b) :=
  after_of_forall_not_mem _ _ (not_written outs_F b hb)

/-! ## What each stretch computes, from any contents -/

section Stretches
variable (V : Valuation τ sig (Elt F))

theorem A_mean : after opsA V (Proc.devRef .tc main_v27)
    = meanAgg (V (Proc.devRef .tc main_arg0)) (V (Proc.devRef .tc main_arg2)) (V (Proc.devRef .tc main_arg4)) := by
  after_results_simp
  rfl

theorem B_layer : after opsB V (Proc.devRef .tc main_v34)
    = hostRelu (V (Proc.devRef .tc main_v27)) (V (Proc.devRef .tc main_arg1)) (V (Proc.devRef .tc main_arg6))
        (V (Proc.devRef .tc main_arg8)) (V (Proc.devRef .tc main_arg7)) := by
  after_results
  rfl

theorem C_mean : after opsC V (Proc.devRef .tc main_v62)
    = meanAgg (V (Proc.devRef .tc main_arg1)) (V (Proc.devRef .tc main_arg3)) (V (Proc.devRef .tc main_arg5)) := by
  after_results_simp
  rfl

theorem D_layer : after opsD V (Proc.devRef .tc main_v69)
    = hostRelu (V (Proc.devRef .tc main_v62)) (V (Proc.devRef .tc main_arg0)) (V (Proc.devRef .tc main_arg9))
        (V (Proc.devRef .tc main_arg11)) (V (Proc.devRef .tc main_arg10)) := by
  after_results
  rfl

theorem E_mean : after opsE V (Proc.devRef .tc main_v97)
    = meanAgg (V (Proc.devRef .tc main_v34)) (V (Proc.devRef .tc main_arg3)) (V (Proc.devRef .tc main_arg5)) := by
  after_results_simp
  rfl

theorem F_layer : after opsF V (Proc.devRef .tc main_v104)
    = hostLogsm (V (Proc.devRef .tc main_v97)) (V (Proc.devRef .tc main_v69)) (V (Proc.devRef .tc main_arg12))
        (V (Proc.devRef .tc main_arg14)) (V (Proc.devRef .tc main_arg13)) := by
  host_read
  unfold hostLogsm hostLogSoftmax hostLin16
  rfl

end Stretches

/-! ## The six stretches chained -/

section Whole
variable (V0 : Valuation τ sig (Elt F))

/-- After the second stretch: the hidden item features. -/
theorem hItem : after opsB (after opsA V0) (Proc.devRef .tc main_v34)
    = hostRelu (meanAgg (V0 (Proc.devRef .tc main_arg0)) (V0 (Proc.devRef .tc main_arg2)) (V0 (Proc.devRef .tc main_arg4))) (V0 (Proc.devRef .tc main_arg1)) (V0 (Proc.devRef .tc main_arg6)) (V0 (Proc.devRef .tc main_arg8)) (V0 (Proc.devRef .tc main_arg7)) := by
  rw [B_layer, A_mean, keepA V0 main_arg1 (by decide), keepA V0 main_arg6 (by decide), keepA V0 main_arg8 (by decide), keepA V0 main_arg7 (by decide)]

/-- After the fourth stretch: the hidden user features. -/
theorem hUser : after opsD (after opsC (after opsB (after opsA V0))) (Proc.devRef .tc main_v69)
    = hostRelu (meanAgg (V0 (Proc.devRef .tc main_arg1)) (V0 (Proc.devRef .tc main_arg3)) (V0 (Proc.devRef .tc main_arg5))) (V0 (Proc.devRef .tc main_arg0)) (V0 (Proc.devRef .tc main_arg9)) (V0 (Proc.devRef .tc main_arg11)) (V0 (Proc.devRef .tc main_arg10)) := by
  rw [D_layer, C_mean, ((keepB (after opsA V0) main_arg1 (by decide)).trans (keepA V0 main_arg1 (by decide))), ((keepB (after opsA V0) main_arg3 (by decide)).trans (keepA V0 main_arg3 (by decide))), ((keepB (after opsA V0) main_arg5 (by decide)).trans (keepA V0 main_arg5 (by decide))),
    ((keepC (after opsB (after opsA V0)) main_arg0 (by decide)).trans ((keepB (after opsA V0) main_arg0 (by decide)).trans (keepA V0 main_arg0 (by decide)))), ((keepC (after opsB (after opsA V0)) main_arg9 (by decide)).trans ((keepB (after opsA V0) main_arg9 (by decide)).trans (keepA V0 main_arg9 (by decide)))), ((keepC (after opsB (after opsA V0)) main_arg11 (by decide)).trans ((keepB (after opsA V0) main_arg11 (by decide)).trans (keepA V0 main_arg11 (by decide)))), ((keepC (after opsB (after opsA V0)) main_arg10 (by decide)).trans ((keepB (after opsA V0) main_arg10 (by decide)).trans (keepA V0 main_arg10 (by decide))))]

/-- THE RESULT BUFFER after the whole line is the network of the contents the line found at the arguments. -/
theorem read : after ops V0 (Proc.devRef .tc main_v104) = network (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [ops_split, after_append, after_append, after_append, after_append, after_append]
  rw [F_layer, E_mean, keepD _ main_v34 (by decide), keepC _ main_v34 (by decide), hItem V0,
    ((keepD (after opsC (after opsB (after opsA V0))) main_arg3 (by decide)).trans ((keepC (after opsB (after opsA V0)) main_arg3 (by decide)).trans ((keepB (after opsA V0) main_arg3 (by decide)).trans (keepA V0 main_arg3 (by decide))))), ((keepD (after opsC (after opsB (after opsA V0))) main_arg5 (by decide)).trans ((keepC (after opsB (after opsA V0)) main_arg5 (by decide)).trans ((keepB (after opsA V0) main_arg5 (by decide)).trans (keepA V0 main_arg5 (by decide))))),
    keepE _ main_v69 (by decide), hUser V0,
    ((keepE (after opsD (after opsC (after opsB (after opsA V0)))) main_arg12 (by decide)).trans ((keepD (after opsC (after opsB (after opsA V0))) main_arg12 (by decide)).trans ((keepC (after opsB (after opsA V0)) main_arg12 (by decide)).trans ((keepB (after opsA V0) main_arg12 (by decide)).trans (keepA V0 main_arg12 (by decide)))))), ((keepE (after opsD (after opsC (after opsB (after opsA V0)))) main_arg14 (by decide)).trans ((keepD (after opsC (after opsB (after opsA V0))) main_arg14 (by decide)).trans ((keepC (after opsB (after opsA V0)) main_arg14 (by decide)).trans ((keepB (after opsA V0) main_arg14 (by decide)).trans (keepA V0 main_arg14 (by decide)))))), ((keepE (after opsD (after opsC (after opsB (after opsA V0)))) main_arg13 (by decide)).trans ((keepD (after opsC (after opsB (after opsA V0))) main_arg13 (by decide)).trans ((keepC (after opsB (after opsA V0)) main_arg13 (by decide)).trans ((keepB (after opsA V0) main_arg13 (by decide)).trans (keepA V0 main_arg13 (by decide))))))]
  rfl

/-- A buffer no stretch writes is, after the whole line, as the line found it. -/
theorem keep_all (b : Ref sig .tc) (hA : b ∉ outsA) (hB : b ∉ outsB) (hC : b ∉ outsC) (hD : b ∉ outsD) (hE : b ∉ outsE)
    (hF : b ∉ outsF) : after (ops (F := F)) V0 (Proc.devRef .tc b) = V0 (Proc.devRef .tc b) := by
  rw [ops_split, after_append, after_append, after_append, after_append, after_append]
  rw [keepF _ b hF, keepE _ b hE, keepD _ b hD, keepC _ b hC, keepB _ b hB, keepA _ b hA]

end Whole

/-! ## The reference's run -/

/-- Every weakly fair execution of the reference terminates with its result at the network of the arguments' launch
    contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v104).trans (read (launchContents m c)),
      (h c main_arg0).trans (keep_all (launchContents m c) main_arg0 (by decide) (by decide) (by decide) (by decide) (by decide) (by decide)),
      (h c main_arg1).trans (keep_all (launchContents m c) main_arg1 (by decide) (by decide) (by decide) (by decide) (by decide) (by decide)),
      (h c main_arg2).trans (keep_all (launchContents m c) main_arg2 (by decide) (by decide) (by decide) (by decide) (by decide) (by decide)),
      (h c main_arg3).trans (keep_all (launchContents m c) main_arg3 (by decide) (by decide) (by decide) (by decide) (by decide) (by decide)),
      (h c main_arg4).trans (keep_all (launchContents m c) main_arg4 (by decide) (by decide) (by decide) (by decide) (by decide) (by decide)),
      (h c main_arg5).trans (keep_all (launchContents m c) main_arg5 (by decide) (by decide) (by decide) (by decide) (by decide) (by decide)),
      (h c main_arg6).trans (keep_all (launchContents m c) main_arg6 (by decide) (by decide) (by decide) (by decide) (by decide) (by decide)),
      (h c main_arg7).trans (keep_all (launchContents m c) main_arg7 (by decide) (by decide) (by decide) (by decide) (by decide) (by decide)),
      (h c main_arg8).trans (keep_all (launchContents m c) main_arg8 (by decide) (by decide) (by decide) (by decide) (by decide) (by decide)),
      (h c main_arg9).trans (keep_all (launchContents m c) main_arg9 (by decide) (by decide) (by decide) (by decide) (by decide) (by decide)),
      (h c main_arg10).trans (keep_all (launchContents m c) main_arg10 (by decide) (by decide) (by decide) (by decide) (by decide) (by decide)),
      (h c main_arg11).trans (keep_all (launchContents m c) main_arg11 (by decide) (by decide) (by decide) (by decide) (by decide) (by decide)),
      (h c main_arg12).trans (keep_all (launchContents m c) main_arg12 (by decide) (by decide) (by decide) (by decide) (by decide) (by decide)),
      (h c main_arg13).trans (keep_all (launchContents m c) main_arg13 (by decide) (by decide) (by decide) (by decide) (by decide) (by decide)),
      (h c main_arg14).trans (keep_all (launchContents m c) main_arg14 (by decide) (by decide) (by decide) (by decide) (by decide) (by decide))⟩)
    (Cert.ReferenceIdeal.RunP.run m ρ)

end Cert.Sage.Ref

end
-- ==== Proof.lean ====
/-
  The certificate of a two-layer GraphSAGE network on a user–item graph.

  Both programs compute, for 100000 user nodes, the log-softmax of an output layer over hidden features; each of the three
  dense layers is `act ((mean · Wl + b) + x · Wr)` of a weighted neighbour mean and the node's own features, with `act`
  the rectifier for the two hidden layers and the row-wise log-softmax for the output layer. The reference computes each
  layer on whole arrays with host operations; the kernel program computes the neighbour means with the same host
  operations and each layer in a kernel region over 20 blocks of 5000 rows, adding the bias last instead of between the
  two products. At the exact values the two layers agree entry by entry (a change of float format is the identity, both
  matrix products are plain sums, and a + c + b = a + b + c on the extended reals, without any finiteness), the blocks
  tile the arrays, and the shared neighbour mean is applied to equal arrays: both programs end with the same function,
  `Cert.Sage.network`, of their arguments. The idealization rewrote nothing, so it preserves the kernel trivially.
-/
import proofs.«178790_j38628935860965_1_alg».proof.Defs
import proofs.«178790_j38628935860965_1_alg».proof.Proof.Gen.Kernel
import proofs.«178790_j38628935860965_1_alg».proof.Proof.Gen.Kernel.Frame
import proofs.«178790_j38628935860965_1_alg».proof.Proof.Gen.KernelIdeal
import proofs.«178790_j38628935860965_1_alg».proof.Proof.Gen.KernelIdeal.Frame
import proofs.«178790_j38628935860965_1_alg».proof.Proof.Gen.ReferenceIdeal
import proofs.«178790_j38628935860965_1_alg».proof.Proof.Gen.Pre_finite_inputs
import proofs.«178790_j38628935860965_1_alg».proof.Proof.KernelRun
import proofs.«178790_j38628935860965_1_alg».proof.Proof.Chain
import proofs.«178790_j38628935860965_1_alg».proof.Proof.RefRead

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.Sage.Ref.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.Sage.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.Sage.Chain.result m ρ c), (h c).2⟩) (Cert.KernelIdeal.ValueRun.run m ρ)
  · refine (θ_run Cert.ReferenceIdeal.defs _ _).mono (fun _ h c => ⟨(h c).1.trans ?_, (h c).2⟩)
      (Cert.Sage.Ref.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
